-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v32_0)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v32_0) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S256x256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg4 : FVec F S256x128 .f32) (main_arg5 : FVec F S128 .f32) (main_arg6 : FVec F S256x128 .f32) (main_arg7 : FVec F S128 .f32) (main_arg8 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_v33

def fn {F : FTy → Type} [FloatOps F] (main_arg0 : FVec F S50000x256 .f32) (main_arg1 : FVec F S50000x128 .f32) (main_arg2 : FVec F S256x256 .f32) (main_arg3 : FVec F S256 .f32) (main_arg4 : FVec F S256x128 .f32) (main_arg5 : FVec F S128 .f32) (main_arg6 : FVec F S256x128 .f32) (main_arg7 : FVec F S128 .f32) (main_arg8 : FVec F S256x256 .f32) (main_arg9 : IVec S800000 32) (main_arg10 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S50000x256 : Shape := ⟨2, ![50000, 256]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S1x128 : Shape := ⟨2, ![1, 128]⟩
abbrev S2000x256 : Shape := ⟨2, ![2000, 256]⟩
abbrev S2000x1 : Shape := ⟨2, ![2000, 1]⟩
abbrev S800000x256 : Shape := ⟨2, ![800000, 256]⟩
abbrev S2000x128 : Shape := ⟨2, ![2000, 128]⟩

abbrev nBuf : Space → Nat
  | .hbm => 71
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x1, .f32⟩
  | .hbm, ⟨35, _⟩ => ⟨S1x256, .f32⟩
  | .hbm, ⟨36, _⟩ => ⟨S1x128, .f32⟩
  | .hbm, ⟨37, _⟩ => ⟨S1x128, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S256x256, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S50000x128, .f32⟩
  | .hbm, ⟨69, _⟩ => ⟨S256x256, .f32⟩
  | .hbm, ⟨70, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x1, .f32⟩
  | .local _ .vmem, ⟨13, _⟩ => ⟨S2000x1, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x1, .f32⟩
  | .local _ .vmem, ⟨22, _⟩ => ⟨S2000x1, .f32⟩
  | .local _ .vmem, ⟨23, _⟩ => ⟨S1x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S2000x256, .f32⟩
  | .local _ .vmem, ⟨33, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S256_S1x256 : S256.ShapeCasts S1x256
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  concatenates_S256x128_S256x128_S256x256_d1 : Shape.Concatenates [S256x128, S256x128] S256x256 1
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S256x256_S256x256 : S256x256.ShapeCasts S256x256
  slices_S2000x256_o0_0_S2000x128 : S2000x256.Slices ![0, 0] S2000x128
  slices_S2000x256_o0_128_S2000x128 : S2000x256.Slices ![0, 128] S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  transposes_S256x256_S256x256_1_0 : S256x256.Transposes [1, 0] S256x256
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S50000x1, .f32⟩
  | .hbm, ⟨51, _⟩ => ⟨S50000x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x1, .f32⟩
  | .hbm, ⟨86, _⟩ => ⟨S50000x256, .f32⟩
  | .hbm, ⟨87, _⟩ => ⟨S50000x256, .f32⟩
  | .hbm, ⟨88, _⟩ => ⟨S50000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S256x256, .f32⟩
  | .hbm, ⟨112, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S256x256_S256x256_1_0 : S256x256.Transposes [1, 0] S256x256
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel program's run with its three results kept.

  @main is eight segments: four stretches of host operations and four kernel regions.  The buffer contents at each
  segment boundary are a fold from the launch memory; after the last region every unscoped buffer holds the last
  boundary's contents.  The run below is the launch of those segments read at the three result buffers and the eleven
  argument buffers: each result ends at the last boundary's contents of its buffer, each argument as launched.
-/
import proofs.«117552_j23536420782574_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; each result buffer ends at the contents the
    last segment boundary gives it, each argument buffer as launched. -/
theorem run_values : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_v32_0) = W8 m ρ c (Proc.devRef .tc main_v32_0)
      ∧ r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       h c _ (mem_uc main_v32_0 (by decide)),
       h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.Payloads.lean ====
/-
  What each kernel body stores, read at one entry, at the ideal values.

  Region 0 stores the product of the row-scaled input block with the weight matrix: entry (p, q) is the sum over k of
  (x(p,k) · s(p,0)) · w(k,q).  Region 1 stores h = max(a · n + b, 0) entry by entry (n a column, b a row) and the
  product of h, row-scaled by a second column, with the weights.  Region 2 stores
  max(a(p,q) · n(p) + b2(q), 0) + z(p,q) · exp(a(p,q+128) · n(p) + b3(q)): the first 128 columns of the aggregate feed
  the mean, the last 128 the log standard deviation.  Region 3 stores a plain product.
-/
import proofs.«117552_j23536420782574_2_alg».proof.Proof.Gen.KernelIdeal.Skeleton
import proofs.«117552_j23536420782574_2_alg».proof.Proof.LibPlainMatmul
import proofs.«117552_j23536420782574_2_alg».proof.Proof.LibKeptColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The zero word denotes zero. -/
abbrev zeroE : EReal := Ideal.ofBits .f32 0x00000000#32

/-- Region 0's stored value at (p, q). -/
theorem pay0_apply (v0 : FVec Ideal S2000x256 .f32) (v1 : FVec Ideal S2000x1 .f32) (v5 : FVec Ideal S256x256 .f32)
    (p : Fin 2000) (q : Fin 256) :
    k0_pay1 (F := Ideal) v0 v1 v5 (ix2 p q) = ∑ k : Fin 256, (v0 (ix2 p k) * v1 (ix2 p (0 : Fin 1))) * v5 (ix2 k q) := by
  unfold k0_pay1
  refine (PlainMatmul.matmul_zero_apply dot_S2000x256_S256x256_S2000x256_1_0_0_1_n_n rfl rfl rfl rfl rfl rfl _ _ _ p q).trans ?_
  refine Finset.sum_congr rfl fun k _ => ?_
  refine congrArg (· * v5 (ix2 k q)) ?_
  show v0 (ix2 p k) * broadcastTo S2000x256 (shapeCast S2000x1 v1 shapeCasts_S2000x1_S2000x1) broadcasts_S2000x1_S2000x256 (ix2 p k) = _
  rw [KeptColumn.broadcastTo_a1_ab_apply, shapeCast_self]

/-- Region 1's first stored value (the hidden layer) at (p, q). -/
theorem pay1h_apply (v0 : FVec Ideal S2000x256 .f32) (v2 : FVec Ideal S2000x1 .f32) (v6 : FVec Ideal S1x256 .f32)
    (p : Fin 2000) (q : Fin 256) :
    k1_pay1 (F := Ideal) v0 v2 v6 (ix2 p q)
      = max (v0 (ix2 p q) * v2 (ix2 p (0 : Fin 1)) + v6 (ix2 (0 : Fin 1) q)) zeroE := by
  unfold k1_pay1
  show max (shapeCast S2000x256 v0 shapeCasts_S2000x256_S2000x256 (ix2 p q)
      * broadcastTo S2000x256 (shapeCast S2000x1 v2 shapeCasts_S2000x1_S2000x1) broadcasts_S2000x1_S2000x256 (ix2 p q)
      + broadcastTo S2000x256 (shapeCast S1x256 v6 shapeCasts_S1x256_S1x256) broadcasts_S1x256_S2000x256 (ix2 p q)) zeroE = _
  rw [KeptColumn.broadcastTo_a1_ab_apply, broadcastTo_1b_ab_apply, shapeCast_self, shapeCast_self, shapeCast_self]

/-- Region 1's second stored value (the row-scaled hidden layer times the two weight matrices side by side) at (p, q). -/
theorem pay1x_apply (v0 : FVec Ideal S2000x256 .f32) (v2 : FVec Ideal S2000x1 .f32) (v6 : FVec Ideal S1x256 .f32)
    (v13 : FVec Ideal S2000x1 .f32) (v17 : FVec Ideal S256x256 .f32) (p : Fin 2000) (q : Fin 256) :
    k1_pay2 (F := Ideal) v0 v2 v6 v13 v17 (ix2 p q)
      = ∑ k : Fin 256, (max (v0 (ix2 p k) * v2 (ix2 p (0 : Fin 1)) + v6 (ix2 (0 : Fin 1) k)) zeroE * v13 (ix2 p (0 : Fin 1))) * v17 (ix2 k q) := by
  unfold k1_pay2
  refine (PlainMatmul.matmul_zero_apply dot_S2000x256_S256x256_S2000x256_1_0_0_1_n_n rfl rfl rfl rfl rfl rfl _ _ _ p q).trans ?_
  refine Finset.sum_congr rfl fun k _ => ?_
  rw [shapeCast_self, shapeCast_self]
  refine congrArg (· * v17 (ix2 k q)) ?_
  show k1_pay1 (F := Ideal) v0 v2 v6 (ix2 p k) * broadcastTo S2000x256 v13 broadcasts_S2000x1_S2000x256 (ix2 p k) = _
  rw [KeptColumn.broadcastTo_a1_ab_apply, pay1h_apply]

/-- Region 2's stored value at (p, q). -/
theorem pay2_apply (v0 : FVec Ideal S2000x256 .f32) (v4 : FVec Ideal S2000x1 .f32) (v8 : FVec Ideal S1x128 .f32)
    (v14 : FVec Ideal S2000x1 .f32) (v18 : FVec Ideal S1x128 .f32) (v22 : FVec Ideal S2000x128 .f32)
    (p : Fin 2000) (q : Fin 128) (q' : Fin 256) (hq : q'.val = 128 + q.val) (q0 : Fin 256) (hq0 : q0.val = 0 + q.val) :
    k2_pay1 (F := Ideal) v0 v4 v8 v14 v18 v22 (ix2 p q)
      = max (v0 (ix2 p q0) * v4 (ix2 p (0 : Fin 1)) + v8 (ix2 (0 : Fin 1) q)) zeroE
        + v22 (ix2 p q) * Ideal.exp (v0 (ix2 p q') * v14 (ix2 p (0 : Fin 1)) + v18 (ix2 (0 : Fin 1) q)) := by
  unfold k2_pay1
  show max (extractStridedSlice S2000x128 ![0, 0] (shapeCast S2000x256 v0 shapeCasts_S2000x256_S2000x256) slices_S2000x256_o0_0_S2000x128 (ix2 p q)
        * broadcastTo S2000x128 (shapeCast S2000x1 v4 shapeCasts_S2000x1_S2000x1) broadcasts_S2000x1_S2000x128 (ix2 p q)
        + broadcastTo S2000x128 (shapeCast S1x128 v8 shapeCasts_S1x128_S1x128) broadcasts_S1x128_S2000x128 (ix2 p q)) zeroE
      + v22 (ix2 p q) * Ideal.exp (extractStridedSlice S2000x128 ![0, 128] (shapeCast S2000x256 v0 shapeCasts_S2000x256_S2000x256) slices_S2000x256_o0_128_S2000x128 (ix2 p q)
        * broadcastTo S2000x128 (shapeCast S2000x1 v14 shapeCasts_S2000x1_S2000x1) broadcasts_S2000x1_S2000x128 (ix2 p q)
        + broadcastTo S2000x128 (shapeCast S1x128 v18 shapeCasts_S1x128_S1x128) broadcasts_S1x128_S2000x128 (ix2 p q)) = _
  rw [slice2_axis1_apply 0 _ _ p q q0 hq0, slice2_axis1_apply 128 _ _ p q q' hq,
    KeptColumn.broadcastTo_a1_ab_apply, KeptColumn.broadcastTo_a1_ab_apply, broadcastTo_1b_ab_apply, broadcastTo_1b_ab_apply,
    shapeCast_self, shapeCast_self, shapeCast_self, shapeCast_self, shapeCast_self]

/-- Region 3's stored value at (p, q). -/
theorem pay3_apply (v0 : FVec Ideal S2000x256 .f32) (v1 : FVec Ideal S256x256 .f32) (p : Fin 2000) (q : Fin 256) :
    k3_pay1 (F := Ideal) v0 v1 (ix2 p q) = ∑ k : Fin 256, v0 (ix2 p k) * v1 (ix2 k q) := by
  unfold k3_pay1
  refine (PlainMatmul.matmul_zero_apply dot_S2000x256_S256x256_S2000x256_1_0_0_1_n_n rfl rfl rfl rfl rfl rfl _ _ _ p q).trans ?_
  rw [shapeCast_self]

end Cert.KernelIdeal.Pay

end
-- ==== Proof.Spec.lean ====
/-
  The stages of the network as functions of arrays, entry by entry, at the ideal values.

  scaledProduct X s W     : (i, j) ↦ Σ_k (X(i,k) · s(i,0)) · W(k,j)                     (a row-scaled matrix times weights)
  hiddenLayer A n b            : (i, j) ↦ max(A(i,j) · n(i,0) + b(0,j), 0)                    (the hidden layer)
  hiddenProduct A n b s W : (i, j) ↦ Σ_k (max(A(i,k) · n(i,0) + b(0,k), 0) · s(i,0)) · W(k,j)
  sample A n b2 b3 z      : (i, j) ↦ max(A(i,j) · n(i,0) + b2(0,j), 0) + z(i,j) · exp(A(i,128+j) · n(i,0) + b3(0,j))
  product X W             : (i, j) ↦ Σ_k X(i,k) · W(k,j)
  degNorm idx             : the degree factor max(count, 1)^(-1/2) of every node
  aggregate X src dst     : the edge aggregation, rows of X gathered at src (negative entries wrapped) and summed
                            into the rows dst names, kept as one function of X and the two index arrays.
-/
import proofs.«117552_j23536420782574_2_alg».proof.Proof.Gen.KernelIdeal
import Idealize.ShloMosaic.Lib.ValueIdx
import Idealize.ShloMosaic.PureOps.Ideal

noncomputable section

open scoped BigOperators

namespace Cert.KernelIdeal.Spec

open Cert.KernelIdeal Cert.KernelIdeal.Gen Idealize.ShloMosaic Idealize.ShloMosaic.ValueIdx

/-- The row of a matrix index, as a number below the row count. -/
abbrev rowOf2 {a b : Nat} (i : (⟨2, ![a, b]⟩ : Shape).Idx) : Fin a := ⟨(i 0).val, idx2_lt0 i⟩
/-- The column of a matrix index. -/
abbrev colOf2 {a b : Nat} (i : (⟨2, ![a, b]⟩ : Shape).Idx) : Fin b := ⟨(i 1).val, idx2_lt1 i⟩

/-- Column q of the first half of a 256-wide row. -/
abbrev lo (q : Fin 128) : Fin 256 := ⟨q.val, by omega⟩
/-- Column q of the second half of a 256-wide row. -/
abbrev hi (q : Fin 128) : Fin 256 := ⟨128 + q.val, by omega⟩

def scaledProduct (X : S50000x256.Idx → EReal) (s : S50000x1.Idx → EReal) (W : S256x256.Idx → EReal) : S50000x256.Idx → EReal :=
  fun i => ∑ k : Fin 256, (X (ix2 (rowOf2 i) k) * s (ix2 (rowOf2 i) (0 : Fin 1))) * W (ix2 k (colOf2 i))

def hiddenLayer (A : S50000x256.Idx → EReal) (n : S50000x1.Idx → EReal) (b : S1x256.Idx → EReal) : S50000x256.Idx → EReal :=
  fun i => max (A (ix2 (rowOf2 i) (colOf2 i)) * n (ix2 (rowOf2 i) (0 : Fin 1)) + b (ix2 (0 : Fin 1) (colOf2 i)))
    (Ideal.ofBits .f32 0x00000000#32)

def hiddenProduct (A : S50000x256.Idx → EReal) (n : S50000x1.Idx → EReal) (b : S1x256.Idx → EReal)
    (s : S50000x1.Idx → EReal) (W : S256x256.Idx → EReal) : S50000x256.Idx → EReal :=
  fun i => ∑ k : Fin 256, (max (A (ix2 (rowOf2 i) k) * n (ix2 (rowOf2 i) (0 : Fin 1)) + b (ix2 (0 : Fin 1) k))
    (Ideal.ofBits .f32 0x00000000#32) * s (ix2 (rowOf2 i) (0 : Fin 1))) * W (ix2 k (colOf2 i))

def sample (A : S50000x256.Idx → EReal) (n : S50000x1.Idx → EReal) (b2 b3 : S1x128.Idx → EReal)
    (z : S50000x128.Idx → EReal) : S50000x128.Idx → EReal :=
  fun i => max (A (ix2 (rowOf2 i) (lo (colOf2 i))) * n (ix2 (rowOf2 i) (0 : Fin 1)) + b2 (ix2 (0 : Fin 1) (colOf2 i)))
      (Ideal.ofBits .f32 0x00000000#32)
    + z (ix2 (rowOf2 i) (colOf2 i))
      * Ideal.exp (A (ix2 (rowOf2 i) (hi (colOf2 i))) * n (ix2 (rowOf2 i) (0 : Fin 1)) + b3 (ix2 (0 : Fin 1) (colOf2 i)))

def product (X : S50000x256.Idx → EReal) (W : S256x256.Idx → EReal) : S50000x256.Idx → EReal :=
  fun i => ∑ k : Fin 256, X (ix2 (rowOf2 i) k) * W (ix2 k (colOf2 i))

/-- The degree factor of every node: the number of edges whose index entry names the node, at least one, to the power
    minus one half. -/
def degNorm (idx : (⟨S800000, .i32⟩ : BufTy).Contents (Elt Ideal)) : (⟨S50000, .f32⟩ : BufTy).Contents (Elt Ideal) :=
  Host.powf (F := Ideal)
    (maximumf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The source indices as the gather reads them: a negative entry wrapped by the row count. -/
def wrapped (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge aggregation of a 256-wide array. -/
def aggregate (X : (⟨S50000x256, .f32⟩ : BufTy).Contents (Elt Ideal)) (src dst : (⟨S800000, .i32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 X (wrapped src))

end Cert.KernelIdeal.Spec

end
-- ==== Proof.Arr0.lean ====
/-
  Region 0's output array after the region, as one function of the arrays the region finds.

  The grid has 25 points; point t reads rows 2000·t … 2000·t + 1999 of the features and of the scale column, the
  whole weight matrix, and writes rows 2000·t … of the output.  So entry (i, j) of the output array is
  the sum over k of (X(i,k) · s(i,0)) · W(k,j), whatever block i falls in.
-/
import proofs.«117552_j23536420782574_2_alg».proof.Proof.Gen.KernelIdeal.Frame
import proofs.«117552_j23536420782574_2_alg».proof.Proof.Payloads
import proofs.«117552_j23536420782574_2_alg».proof.Proof.Spec
import Idealize.ShloMosaic.Lib.Pipeline.Value

set_option maxRecDepth 16384

noncomputable section

open scoped BigOperators

namespace Cert.KernelIdeal.Arr

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps of region 0 over the grid: the row windows move with the point, the weight window stays. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the features: rows 2000·t …. -/
theorem blk0_0 (c : Dev nD) (t : Fin cfg0.N) (y : S2000x256.Idx) (i : S50000x256.Idx)
    (h0 : (i 0).val = t.val * 2000 + (y 0).val) (h1 : (i 1).val = (y 1).val) :
    (iblk0 V c 0 t : S2000x256.Idx → EReal) y = (V c main_arg0 : S50000x256.Idx → EReal) i := by
  obtain ⟨e0, e1, -⟩ := idx0 t
  unfold iblk0
  rw [View.read_apply]
  show (V c main_arg0 : S50000x256.Idx → EReal) _ = _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- Block t of the scale column. -/
theorem blk0_1 (c : Dev nD) (t : Fin cfg0.N) (y : S2000x1.Idx) (i : S50000x1.Idx)
    (h0 : (i 0).val = t.val * 2000 + (y 0).val) (h1 : (i 1).val = (y 1).val) :
    (iblk0 V c 1 t : S2000x1.Idx → EReal) y = (V c main_v15 : S50000x1.Idx → EReal) i := by
  obtain ⟨-, -, e0, e1, -⟩ := idx0 t
  unfold iblk0
  rw [View.read_apply]
  show (V c main_v15 : S50000x1.Idx → EReal) _ = _
  refine congrArg _ (funext fun a => Fin.ext ?_)
  match a with
  | ⟨0, _⟩ => show win0_1.index t (0 : Fin 2) * 2000 + 1 * (y 0).val = (i 0).val; rw [e0, h0]; omega
  | ⟨1, _⟩ => show win0_1.index t (1 : Fin 2) * 1 + 1 * (y 1).val = (i 1).val; rw [e1, h1]; omega

/-- The weight window's one block is the whole matrix. -/
theorem blk0_2 (c : Dev nD) (t : Fin cfg0.N) (y : S256x256.Idx) (i : S256x256.Idx)
    (h0 : (i 0).val = (y 0).val) (h1 : (i 1).val = (y 1).val) :
    (iblk0 V c 2 t : S256x256.Idx → EReal) y = (V c main_arg2 : S256x256.Idx → EReal) i := by
  obtain ⟨-, -, -, -, e0, e1, -⟩ := idx0 t
  unfold iblk0
  rw [View.read_apply]
  show (V c main_arg2 : S256x256.Idx → EReal) _ = _
  refine congrArg _ (funext fun a => Fin.ext ?_)
  match a with
  | ⟨0, _⟩ => show win0_2.index t (0 : Fin 2) * 256 + 1 * (y 0).val = (i 0).val; rw [e0, h0]; omega
  | ⟨1, _⟩ => show win0_2.index t (1 : Fin 2) * 256 + 1 * (y 1).val = (i 1).val; rw [e1, h1]; omega

/-- What point t writes back is block t of the scaled product. -/
theorem flushed0_3 (c : Dev nD) (t : Fin cfg0.N) :
    (dat0 V c).flushed 3 t = ((cfg0.win 3).blk t).view.read (Elt Ideal)
      (scaledProduct (V c main_arg0) (V c main_v15) (V c main_arg2)) := by
  show (cfg0.win 3).cut (grid0.coords t) ((dat0 V c).after 3 t) = _
  rw [after0_3]
  unfold out0_3
  rw [View.canon_unit_zero hz0]
  simp only [View.ld_unit_zero (S := S2000x256) hz0, View.ld_unit_zero (S := S2000x1) hz0, View.ld_unit_zero (S := S256x256) hz0]
  obtain ⟨-, -, -, -, -, -, e0, e1⟩ := idx0 t
  funext (j : S2000x256.Idx)
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = scaledProduct (V c main_arg0) (V c main_v15) (V c main_arg2) (((cfg0.win 3).blk t).view.emb (ix2 p q))
  refine (Pay.pay0_apply (iblk0 V c 0 t) (iblk0 V c 1 t) (iblk0 V c 2 t) p q).trans ?_
  have hr : ((((cfg0.win 3).blk t).view.emb (ix2 p q)) (0 : Fin 2)).val = t.val * 2000 + p.val := by
    show win0_3.index t (0 : Fin 2) * 2000 + 1 * p.val = _; rw [e0]; omega
  have hc : ((((cfg0.win 3).blk t).view.emb (ix2 p q)) (1 : Fin 2)).val = q.val := by
    show win0_3.index t (1 : Fin 2) * 256 + 1 * q.val = _; rw [e1]; omega
  unfold scaledProduct
  refine Finset.sum_congr rfl fun k _ => ?_
  rw [blk0_0 V c t (ix2 p k) (ix2 (rowOf2 (((cfg0.win 3).blk t).view.emb (ix2 p q))) k) hr rfl,
    blk0_1 V c t (ix2 p (0 : Fin 1)) (ix2 (rowOf2 (((cfg0.win 3).blk t).view.emb (ix2 p q))) (0 : Fin 1)) hr rfl,
    blk0_2 V c t (ix2 k q) (ix2 k (colOf2 (((cfg0.win 3).blk t).view.emb (ix2 p q)))) rfl hc]

/-- An index of the output array is in point t's block iff its row is in the block's range. -/
theorem mem_blk0_3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v20).slice (win0_3.rect t)).set ↔ _
  rw [View.set_slice_whole, Rect.mem_set_unit]
  exact Iff.rfl

/-- The output's blocks cover its array: row i is in block i / 2000. -/
theorem cover0_3 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  refine ⟨⟨(i 0).val / 2000, by rw [show cfg0.N = 25 from N_0]; omega⟩, flush0_3 _, ?_⟩
  rw [mem_blk0_3]
  obtain ⟨-, -, -, -, -, -, e0, e1⟩ := idx0 ⟨(i 0).val / 2000, by rw [show cfg0.N = 25 from N_0]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e1]; omega

/-- THE OUTPUT ARRAY after region 0: the scaled product of the arrays the region finds. -/
theorem final0_3 (c : Dev nD) :
    (dat0 V c).arrAt 3 cfg0.N = scaledProduct (V c main_arg0) (V c main_v15) (V c main_arg2) :=
  (dat0 V c).arrAt_eq_of_cover 3 _ (fun t _ => flushed0_3 V c t) cover0_3

end Cert.KernelIdeal.Arr

end
-- ==== Proof.Arr1.lean ====
/-
  Region 1's two output arrays after the region.

  Point t reads rows 2000·t … of the layer-1 aggregate, of the in-degree column and of the out-degree column, the
  whole bias row and the whole 256×256 weight matrix; it writes rows 2000·t … of the hidden layer
  h = max(A · n + b, 0) and of the product of h, row-scaled by the out-degree column, with the weights.
-/
import proofs.«117552_j23536420782574_2_alg».proof.Proof.Gen.KernelIdeal.Frame
import proofs.«117552_j23536420782574_2_alg».proof.Proof.Payloads
import proofs.«117552_j23536420782574_2_alg».proof.Proof.Spec
import Idealize.ShloMosaic.Lib.Pipeline.Value

set_option maxRecDepth 16384

noncomputable section

open scoped BigOperators

namespace Cert.KernelIdeal.Arr

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem blk1_0 (c : Dev nD) (t : Fin cfg1.N) (y : S2000x256.Idx) (i : S50000x256.Idx)
    (h0 : (i 0).val = t.val * 2000 + (y 0).val) (h1 : (i 1).val = (y 1).val) :
    (iblk1 V c 0 t : S2000x256.Idx → EReal) y = (V c main_v30 : S50000x256.Idx → EReal) i := by
  obtain ⟨e0, e1, -⟩ := idx1 t
  unfold iblk1
  rw [View.read_apply]
  show (V c main_v30 : S50000x256.Idx → EReal) _ = _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

theorem blk1_1 (c : Dev nD) (t : Fin cfg1.N) (y : S2000x1.Idx) (i : S50000x1.Idx)
    (h0 : (i 0).val = t.val * 2000 + (y 0).val) (h1 : (i 1).val = (y 1).val) :
    (iblk1 V c 1 t : S2000x1.Idx → EReal) y = (V c main_v16 : S50000x1.Idx → EReal) i := by
  obtain ⟨-, -, e0, e1, -⟩ := idx1 t
  unfold iblk1
  rw [View.read_apply]
  show (V c main_v16 : S50000x1.Idx → EReal) _ = _
  refine congrArg _ (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 1 + 1 * (y 1).val = (i 1).val; rw [e1, h1]; omega

theorem blk1_2 (c : Dev nD) (t : Fin cfg1.N) (y : S1x256.Idx) (i : S1x256.Idx)
    (h0 : (i 0).val = (y 0).val) (h1 : (i 1).val = (y 1).val) :
    (iblk1 V c 2 t : S1x256.Idx → EReal) y = (V c main_v17 : S1x256.Idx → EReal) i := by
  obtain ⟨-, -, -, -, e0, e1, -⟩ := idx1 t
  unfold iblk1
  rw [View.read_apply]
  show (V c main_v17 : S1x256.Idx → EReal) _ = _
  refine congrArg _ (funext fun a => Fin.ext ?_)
  match a with
  | ⟨0, _⟩ => show win1_2.index t (0 : Fin 2) * 1 + 1 * (y 0).val = (i 0).val; rw [e0, h0]; omega
  | ⟨1, _⟩ => show win1_2.index t (1 : Fin 2) * 256 + 1 * (y 1).val = (i 1).val; rw [e1, h1]; omega

theorem blk1_3 (c : Dev nD) (t : Fin cfg1.N) (y : S2000x1.Idx) (i : S50000x1.Idx)
    (h0 : (i 0).val = t.val * 2000 + (y 0).val) (h1 : (i 1).val = (y 1).val) :
    (iblk1 V c 3 t : S2000x1.Idx → EReal) y = (V c main_v15 : S50000x1.Idx → EReal) i := by
  obtain ⟨-, -, -, -, -, -, e0, e1, -⟩ := idx1 t
  unfold iblk1
  rw [View.read_apply]
  show (V c main_v15 : S50000x1.Idx → EReal) _ = _
  refine congrArg _ (funext fun a => Fin.ext ?_)
  match a with
  | ⟨0, _⟩ => show win1_3.index t (0 : Fin 2) * 2000 + 1 * (y 0).val = (i 0).val; rw [e0, h0]; omega
  | ⟨1, _⟩ => show win1_3.index t (1 : Fin 2) * 1 + 1 * (y 1).val = (i 1).val; rw [e1, h1]; omega

theorem blk1_4 (c : Dev nD) (t : Fin cfg1.N) (y : S256x256.Idx) (i : S256x256.Idx)
    (h0 : (i 0).val = (y 0).val) (h1 : (i 1).val = (y 1).val) :
    (iblk1 V c 4 t : S256x256.Idx → EReal) y = (V c main_v31 : S256x256.Idx → EReal) i := by
  obtain ⟨-, -, -, -, -, -, -, -, e0, e1, -⟩ := idx1 t
  unfold iblk1
  rw [View.read_apply]
  show (V c main_v31 : S256x256.Idx → EReal) _ = _
  refine congrArg _ (funext fun a => Fin.ext ?_)
  match a with
  | ⟨0, _⟩ => show win1_4.index t (0 : Fin 2) * 256 + 1 * (y 0).val = (i 0).val; rw [e0, h0]; omega
  | ⟨1, _⟩ => show win1_4.index t (1 : Fin 2) * 256 + 1 * (y 1).val = (i 1).val; rw [e1, h1]; omega

/-- What point t writes back to the hidden layer's array. -/
theorem flushed1_5 (c : Dev nD) (t : Fin cfg1.N) :
    (dat1 V c).flushed 5 t = ((cfg1.win 5).blk t).view.read (Elt Ideal)
      (hiddenLayer (V c main_v30) (V c main_v16) (V c main_v17)) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S2000x1) hz1, View.ld_unit_zero (S := S1x256) hz1]
  obtain ⟨-, -, -, -, -, -, -, -, -, -, e0, e1, -⟩ := idx1 t
  funext (j : S2000x256.Idx)
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (ix2 p q)
    = hiddenLayer (V c main_v30) (V c main_v16) (V c main_v17) (((cfg1.win 5).blk t).view.emb (ix2 p q))
  refine (Pay.pay1h_apply (iblk1 V c 0 t) (iblk1 V c 1 t) (iblk1 V c 2 t) p q).trans ?_
  have hr : ((((cfg1.win 5).blk t).view.emb (ix2 p q)) (0 : Fin 2)).val = t.val * 2000 + p.val := by
    show win1_5.index t (0 : Fin 2) * 2000 + 1 * p.val = _; rw [e0]; omega
  have hc : ((((cfg1.win 5).blk t).view.emb (ix2 p q)) (1 : Fin 2)).val = q.val := by
    show win1_5.index t (1 : Fin 2) * 256 + 1 * q.val = _; rw [e1]; omega
  unfold hiddenLayer
  rw [blk1_0 V c t (ix2 p q) (ix2 (rowOf2 (((cfg1.win 5).blk t).view.emb (ix2 p q))) (colOf2 (((cfg1.win 5).blk t).view.emb (ix2 p q)))) hr hc,
    blk1_1 V c t (ix2 p (0 : Fin 1)) (ix2 (rowOf2 (((cfg1.win 5).blk t).view.emb (ix2 p q))) (0 : Fin 1)) hr rfl,
    blk1_2 V c t (ix2 (0 : Fin 1) q) (ix2 (0 : Fin 1) (colOf2 (((cfg1.win 5).blk t).view.emb (ix2 p q)))) rfl hc]

/-- What point t writes back to the pre-aggregation array of layers 2 and 3. -/
theorem flushed1_6 (c : Dev nD) (t : Fin cfg1.N) :
    (dat1 V c).flushed 6 t = ((cfg1.win 6).blk t).view.read (Elt Ideal)
      (hiddenProduct (V c main_v30) (V c main_v16) (V c main_v17) (V c main_v15) (V c main_v31)) := by
  show (cfg1.win 6).cut (grid1.coords t) ((dat1 V c).after 6 t) = _
  rw [after1_6]
  unfold out1_6
  rw [View.canon_unit_zero hz1]
  simp only [View.ld_unit_zero (S := S2000x256) hz1, View.ld_unit_zero (S := S2000x1) hz1, View.ld_unit_zero (S := S1x256) hz1,
    View.ld_unit_zero (S := S256x256) hz1]
  obtain ⟨-, -, -, -, -, -, -, -, -, -, -, -, e0, e1⟩ := idx1 t
  funext (j : S2000x256.Idx)
  obtain ⟨p, q, rfl⟩ : ∃ (p : Fin 2000) (q : Fin 256), j = ix2 p q := ⟨j 0, j 1, eq_ix2 j⟩
  show k1_pay2 (F := Ideal) (iblk1 V c 0 t) (iblk1 V c 1 t) (iblk1 V c 2 t) (iblk1 V c 3 t) (iblk1 V c 4 t) (ix2 p q)
    = hiddenProduct (V c main_v30) (V c main_v16) (V c main_v17) (V c main_v15) (V c main_v31) (((cfg1.win 6).blk t).view.emb (ix2 p q))
  refine (Pay.pay1x_apply (iblk1 V c 0 t) (iblk1 V c 1 t) (iblk1 V c 2 t) (iblk1 V c 3 t) (iblk1 V c 4 t) p q).trans ?_
  have hr : ((((cfg1.win 6).blk t).view.emb (ix2 p q)) (0 : Fin 2)).val = t.val * 2000 + p.val := by
    show win1_6.index t (0 : Fin 2) * 2000 + 1 * p.val = _; rw [e0]; omega
  have hc : ((((cfg1.win 6).blk t).view.emb (ix2 p q)) (1 : Fin 2)).val = q.val := by
    show win1_6.index t (1 : Fin 2) * 256 + 1 * q.val = _; rw [e1]; omega
  unfold hiddenProduct
  refine Finset.sum_congr rfl fun k _ => ?_
  rw [blk1_0 V c t (ix2 p k) (ix2 (rowOf2 (((cfg1.win 6).blk t).view.emb (ix2 p q))) k) hr rfl,
    blk1_1 V c t (ix2 p (0 : Fin 1)) (ix2 (rowOf2 (((cfg1.win 6).blk t).view.emb (ix2 p q))) (0 : Fin 1)) hr rfl,
    blk1_2 V c t (ix2 (0 : Fin 1) k) (ix2 (0 : Fin 1) k) rfl rfl,
    blk1_3 V c t (ix2 p (0 : Fin 1)) (ix2 (rowOf2 (((cfg1.win 6).blk t).view.emb (ix2 p q))) (0 : Fin 1)) hr rfl,
    blk1_4 V c t (ix2 k q) (ix2 k (colOf2 (((cfg1.win 6).blk t).view.emb (ix2 p q)))) rfl hc]

theorem mem_blk1_5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v32_0).slice (win1_5.rect t)).set ↔ _
  rw [View.set_slice_whole, Rect.mem_set_unit]
  exact Iff.rfl

theorem mem_blk1_6 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v32_1).slice (win1_6.rect t)).set ↔ _
  rw [View.set_slice_whole, Rect.mem_set_unit]
  exact Iff.rfl

theorem cover1_5' (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  refine ⟨⟨(i 0).val / 2000, by rw [show cfg1.N = 25 from N_1]; omega⟩, flush1_5 _, ?_⟩
  rw [mem_blk1_5]
  obtain ⟨-, -, -, -, -, -, -, -, -, -, e0, e1, -⟩ := idx1 ⟨(i 0).val / 2000, by rw [show cfg1.N = 25 from N_1]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e1]; omega

theorem cover1_6' (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  refine ⟨⟨(i 0).val / 2000, by rw [show cfg1.N = 25 from N_1]; omega⟩, flush1_6 _, ?_⟩
  rw [mem_blk1_6]
  obtain ⟨-, -, -, -, -, -, -, -, -, -, -, -, e0, e1⟩ := idx1 ⟨(i 0).val / 2000, by rw [show cfg1.N = 25 from N_1]; omega⟩
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 256 ≤ (i 1).val ∧ (i 1).val < win1_6.index _ (1 : Fin 2) * 256 + 256
    rw [e1]; omega

/-- THE HIDDEN LAYER'S ARRAY after region 1. -/
theorem final1_5 (c : Dev nD) : (dat1 V c).arrAt 5 cfg1.N = hiddenLayer (V c main_v30) (V c main_v16) (V c main_v17) :=
  (dat1 V c).arrAt_eq_of_cover 5 _ (fun t _ => flushed1_5 V c t) cover1_5'

/-- THE PRE-AGGREGATION ARRAY of layers 2 and 3 after region 1. -/
theorem final1_6 (c : Dev nD) :
    (dat1 V c).arrAt 6 cfg1.N = hiddenProduct (V c main_v30) (V c main_v16) (V c main_v17) (V c main_v15) (V c main_v31) :=
  (dat1 V c).arrAt_eq_of_cover 6 _ (fun t _ => flushed1_6 V c t) cover1_6'

end Cert.KernelIdeal.Arr

end
-- ==== Proof.Arr2.lean ====
/-
  Region 2's output array after the region: the sampled embedding.

  Point t reads rows 2000·t … of the 256-wide aggregate of layers 2 and 3, of the in-degree column and of the noise,
  and the two whole bias rows; it writes rows 2000·t … of
  max(A(·, j) · n + b2(j), 0) + noise · exp(A(·, 128 + j) · n + b3(j)).
-/
import proofs.«117552_j23536420782574_2_alg».proof.Proof.Gen.KernelIdeal.Frame
import proofs.«117552_j23536420782574_2_alg».proof.Proof.Payloads
import proofs.«117552_j23536420782574_2_alg».proof.Proof.Spec
import Idealize.ShloMosaic.Lib.Pipeline.Value

set_option maxRecDepth 16384

noncomputable section

open scoped BigOperators

namespace Cert.KernelIdeal.Arr

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem blk2_0 (c : Dev nD) (t : Fin cfg2.N) (y : S2000x256.Idx) (i : S50000x256.Idx)
    (h0 : (i 0).val = t.val * 2000 + (y 0).val) (h1 : (i 1).val = (y 1).val) :
    (iblk2 V c 0 t : S2000x256.Idx → EReal) y = (V c main_v42 : S50000x256.Idx → EReal) i := by
  obtain ⟨e0, e1, -⟩ := idx2 t
  unfold iblk2
  rw [View.read_apply]
  show (V c main_v42 : S50000x256.Idx → EReal) _ = _
  refine congrArg _ (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

theorem blk2_1 (c : Dev nD) (t : Fin cfg2.N) (y : S2000x1.Idx) (i : S50000x1.Idx)
    (h0 : (i 0).val = t.val * 2000 + (y 0).val) (h1 : (i 1).val = (y 1).val) :
    (iblk2 V c 1 t : S2000x1.Idx → EReal) y = (V c main_v16 : S50000x1.Idx → EReal) i := by
  obtain ⟨-, -, e0, e1, -⟩ := idx2 t
  unfold iblk2
  rw [View.read_apply]
  show (V c main_v16 : S50000x1.Idx → EReal) _ = _
  refine congrArg _ (funext fun a => Fin.ext ?_)
  match a with
  | ⟨0, _⟩ => show win2_1.index t (0 : Fin 2) * 2000 + 1 * (y 0).val = (i 0).val; rw [e0, h0]; omega
  | ⟨1, _⟩ => show win2_1.index t (1 : Fin 2) * 1 + 1 * (y 1).val = (i 1).val; rw [e1, h1]; omega

theorem blk2_2 (c : Dev nD) (t : Fin cfg2.N) (y : S1x128.Idx) (i : S1x128.Idx)
    (h0 : (i 0).val = (y 0).val) (h1 : (i 1).val = (y 1).val) :
    (iblk2 V c 2 t : S1x128.Idx → EReal) y = (V c main_v18 : S1x128.Idx → EReal) i := by
  obtain ⟨-, -, -, -, e0, e1, -⟩ := idx2 t
  unfold iblk2
  rw [View.read_apply]
  show (V c main_v18 : S1x128.Idx → EReal) _ = _
  refine congrArg _ (funext fun a => Fin.ext ?_)
  match a with
  | ⟨0, _⟩ => show win2_2.index t (0 : Fin 2) * 1 + 1 * (y 0).val = (i 0).val; rw [e0, h0]; omega
  | ⟨1, _⟩ => show win2_2.index t (1 : Fin 2) * 128 + 1 * (y 1).val = (i 1).val; rw [e1, h1]; omega

theorem blk2_3 (c : Dev nD) (t : Fin cfg2.N) (y : S1x128.Idx) (i : S1x128.Idx)
    (h0 : (i 0).val = (y 0).val) (h1 : (i 1).val = (y 1).val) :
    (iblk2 V c 3 t : S1x128.Idx → EReal) y = (V c main_v19 : S1x128.Idx → EReal) i := by
  obtain ⟨-, -, -, -, -, -, e0, e1, -⟩ := idx2 t
  unfold iblk2
  rw [View.read_apply]
  show (V c main_v19 : S1x128.Idx → EReal) _ = _
  refine congrArg _ (funext fun a => Fin.ext ?_)
  match a with
  | ⟨0, _⟩ => show win2_3.index t (0 : Fin 2) * 1 + 1 * (y 0).val = (i 0).val; rw [e0, h0]; omega
  | ⟨1, _⟩ => show win2_3.index t (1 : Fin 2) * 128 + 1 * (y 1).val = (i 1).val; rw [e1, h1]; omega

theorem blk2_4 (c : Dev nD) (t : Fin cfg2.N) (y : S2000x128.Idx) (i : S50000x128.Idx)
    (h0 : (i 0).val = t.val * 2000 + (y 0).val) (h1 : (i 1).val = (y 1).val) :
    (iblk2 V c 4 t : S2000x128.Idx → EReal) y = (V c main_arg1 : S50000x128.Idx → EReal) i := by
  obtain ⟨-, -, -, -, -, -, -, -, e0, e1, -⟩ := idx2 t
  unfold iblk2
  rw [View.read_apply]
  show (V c main_arg1 : S50000x128.Idx → EReal) _ = _
  refine congrArg _ (funext fun a => Fin.ext ?_)
  match a with
  | ⟨0, _⟩ => show win2_4.index t (0 : Fin 2) * 2000 + 1 * (y 0).val = (i 0).val; rw [e0, h0]; omega
  | ⟨1, _⟩ => show win2_4.index t (1 : Fin 2) * 128 + 1 * (y 1).val = (i 1).val; rw [e1, h1]; omega

/-- What point t writes back is block t of the sampled embedding. -/
theorem flushed2_5 (c : Dev nD) (t : Fin cfg2.N) :
    (dat2 V c).flushed 5 t = ((cfg2.win 5).blk t).view.read (Elt Ideal)
      (sample (V c main_v42) (V c main_v16) (V c main_v18) (V c main_v19) (V c main_arg1)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S2000x1) hz2, View.ld_unit_zero (S := S1x128) hz2,
    View.ld_unit_zero (S := S2000x128) hz2]
  obtain ⟨-, -, -, -, -, -, -, -, -, -, e0, e1⟩ := idx2 t
  funext (j : S2000x128.Idx)
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 1 t) (iblk2 V c 3 t) (iblk2 V c 4 t) (ix2 p q)
    = sample (V c main_v42) (V c main_v16) (V c main_v18) (V c main_v19) (V c main_arg1) (((cfg2.win 5).blk t).view.emb (ix2 p q))
  refine (Pay.pay2_apply (iblk2 V c 0 t) (iblk2 V c 1 t) (iblk2 V c 2 t) (iblk2 V c 1 t) (iblk2 V c 3 t) (iblk2 V c 4 t) p q
    (hi q) rfl (lo q) (Nat.zero_add _).symm).trans ?_
  have hr : ((((cfg2.win 5).blk t).view.emb (ix2 p q)) (0 : Fin 2)).val = t.val * 2000 + p.val := by
    show win2_5.index t (0 : Fin 2) * 2000 + 1 * p.val = _; rw [e0]; omega
  have hc : ((((cfg2.win 5).blk t).view.emb (ix2 p q)) (1 : Fin 2)).val = q.val := by
    show win2_5.index t (1 : Fin 2) * 128 + 1 * q.val = _; rw [e1]; omega
  unfold sample
  rw [blk2_0 V c t (ix2 p (lo q)) (ix2 (rowOf2 (((cfg2.win 5).blk t).view.emb (ix2 p q))) (lo (colOf2 (((cfg2.win 5).blk t).view.emb (ix2 p q))))) hr hc,
    blk2_0 V c t (ix2 p (hi q)) (ix2 (rowOf2 (((cfg2.win 5).blk t).view.emb (ix2 p q))) (hi (colOf2 (((cfg2.win 5).blk t).view.emb (ix2 p q))))) hr
      (show 128 + (colOf2 (((cfg2.win 5).blk t).view.emb (ix2 p q))).val = 128 + q.val from congrArg (128 + ·) hc),
    blk2_1 V c t (ix2 p (0 : Fin 1)) (ix2 (rowOf2 (((cfg2.win 5).blk t).view.emb (ix2 p q))) (0 : Fin 1)) hr rfl,
    blk2_2 V c t (ix2 (0 : Fin 1) q) (ix2 (0 : Fin 1) (colOf2 (((cfg2.win 5).blk t).view.emb (ix2 p q)))) rfl hc,
    blk2_3 V c t (ix2 (0 : Fin 1) q) (ix2 (0 : Fin 1) (colOf2 (((cfg2.win 5).blk t).view.emb (ix2 p q)))) rfl hc,
    blk2_4 V c t (ix2 p q) (ix2 (rowOf2 (((cfg2.win 5).blk t).view.emb (ix2 p q))) (colOf2 (((cfg2.win 5).blk t).view.emb (ix2 p q)))) hr hc]

theorem mem_blk2_5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v43).slice (win2_5.rect t)).set ↔ _
  rw [View.set_slice_whole, Rect.mem_set_unit]
  exact Iff.rfl

theorem cover2_5' (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 2000, by rw [show cfg2.N = 25 from N_2]; omega⟩, flush2_5 _, ?_⟩
  rw [mem_blk2_5]
  obtain ⟨-, -, -, -, -, -, -, -, -, -, e0, e1⟩ := idx2 ⟨(i 0).val / 2000, by rw [show cfg2.N = 25 from N_2]; omega⟩
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

/-- THE OUTPUT ARRAY after region 2: the sampled embedding of the arrays the region finds. -/
theorem final2_5 (c : Dev nD) :
    (dat2 V c).arrAt 5 cfg2.N = sample (V c main_v42) (V c main_v16) (V c main_v18) (V c main_v19) (V c main_arg1) :=
  (dat2 V c).arrAt_eq_of_cover 5 _ (fun t _ => flushed2_5 V c t) cover2_5'

end Cert.KernelIdeal.Arr

end
-- ==== Proof.Arr3.lean ====
/-
  Region 3's output array after the region: the plain product of the features with the (transposed) projection
  weights, entry (i, j) the sum over k of X(i,k) · W(k,j).  Point t reads rows 2000·t … of the features and the whole
  weight matrix, and writes rows 2000·t … of the output.
-/
import proofs.«117552_j23536420782574_2_alg».proof.Proof.Gen.KernelIdeal.Frame
import proofs.«117552_j23536420782574_2_alg».proof.Proof.Payloads
import proofs.«117552_j23536420782574_2_alg».proof.Proof.Spec
import Idealize.ShloMosaic.Lib.Pipeline.Value

set_option maxRecDepth 16384

noncomputable section

open scoped BigOperators

namespace Cert.KernelIdeal.Arr

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem blk3_0 (c : Dev nD) (t : Fin cfg3.N) (y : S2000x256.Idx) (i : S50000x256.Idx)
    (h0 : (i 0).val = t.val * 2000 + (y 0).val) (h1 : (i 1).val = (y 1).val) :
    (iblk3 V c 0 t : S2000x256.Idx → EReal) y = (V c main_arg0 : S50000x256.Idx → EReal) i := by
  obtain ⟨e0, e1, -⟩ := idx3 t
  unfold iblk3
  rw [View.read_apply]
  show (V c main_arg0 : S50000x256.Idx → EReal) _ = _
  refine congrArg _ (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 256 + 1 * (y 1).val = (i 1).val; rw [e1, h1]; omega

theorem blk3_1 (c : Dev nD) (t : Fin cfg3.N) (y : S256x256.Idx) (i : S256x256.Idx)
    (h0 : (i 0).val = (y 0).val) (h1 : (i 1).val = (y 1).val) :
    (iblk3 V c 1 t : S256x256.Idx → EReal) y = (V c main_v44 : S256x256.Idx → EReal) i := by
  obtain ⟨-, -, e0, e1, -⟩ := idx3 t
  unfold iblk3
  rw [View.read_apply]
  show (V c main_v44 : S256x256.Idx → EReal) _ = _
  refine congrArg _ (funext fun a => Fin.ext ?_)
  match a with
  | ⟨0, _⟩ => show win3_1.index t (0 : Fin 2) * 256 + 1 * (y 0).val = (i 0).val; rw [e0, h0]; omega
  | ⟨1, _⟩ => show win3_1.index t (1 : Fin 2) * 256 + 1 * (y 1).val = (i 1).val; rw [e1, h1]; omega

theorem flushed3_2 (c : Dev nD) (t : Fin cfg3.N) :
    (dat3 V c).flushed 2 t = ((cfg3.win 2).blk t).view.read (Elt Ideal) (product (V c main_arg0) (V c main_v44)) := by
  show (cfg3.win 2).cut (grid3.coords t) ((dat3 V c).after 2 t) = _
  rw [after3_2]
  unfold out3_2
  rw [View.canon_unit_zero hz3]
  simp only [View.ld_unit_zero (S := S2000x256) hz3, View.ld_unit_zero (S := S256x256) hz3]
  obtain ⟨-, -, -, -, e0, e1⟩ := idx3 t
  funext (j : S2000x256.Idx)
  obtain ⟨p, q, rfl⟩ : ∃ (p : Fin 2000) (q : Fin 256), j = ix2 p q := ⟨j 0, j 1, eq_ix2 j⟩
  show k3_pay1 (F := Ideal) (iblk3 V c 0 t) (iblk3 V c 1 t) (ix2 p q)
    = product (V c main_arg0) (V c main_v44) (((cfg3.win 2).blk t).view.emb (ix2 p q))
  refine (Pay.pay3_apply (iblk3 V c 0 t) (iblk3 V c 1 t) p q).trans ?_
  have hr : ((((cfg3.win 2).blk t).view.emb (ix2 p q)) (0 : Fin 2)).val = t.val * 2000 + p.val := by
    show win3_2.index t (0 : Fin 2) * 2000 + 1 * p.val = _; rw [e0]; omega
  have hc : ((((cfg3.win 2).blk t).view.emb (ix2 p q)) (1 : Fin 2)).val = q.val := by
    show win3_2.index t (1 : Fin 2) * 256 + 1 * q.val = _; rw [e1]; omega
  unfold product
  refine Finset.sum_congr rfl fun k _ => ?_
  rw [blk3_0 V c t (ix2 p k) (ix2 (rowOf2 (((cfg3.win 2).blk t).view.emb (ix2 p q))) k) hr rfl,
    blk3_1 V c t (ix2 k q) (ix2 k (colOf2 (((cfg3.win 2).blk t).view.emb (ix2 p q)))) rfl hc]

theorem mem_blk3_2 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v45).slice (win3_2.rect t)).set ↔ _
  rw [View.set_slice_whole, Rect.mem_set_unit]
  exact Iff.rfl

theorem cover3_2' (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  refine ⟨⟨(i 0).val / 2000, by rw [show cfg3.N = 25 from N_3]; omega⟩, flush3_2 _, ?_⟩
  rw [mem_blk3_2]
  obtain ⟨-, -, -, -, e0, e1⟩ := idx3 ⟨(i 0).val / 2000, by rw [show cfg3.N = 25 from N_3]; omega⟩
  intro a
  match a with
  | ⟨0, _⟩ =>
    show win3_2.index _ (0 : Fin 2) * 2000 ≤ (i 0).val ∧ (i 0).val < win3_2.index _ (0 : Fin 2) * 2000 + 2000
    rw [e0]; show (i 0).val / 2000 * 2000 ≤ (i 0).val ∧ (i 0).val < (i 0).val / 2000 * 2000 + 2000; omega
  | ⟨1, _⟩ =>
    show win3_2.index _ (1 : Fin 2) * 256 ≤ (i 1).val ∧ (i 1).val < win3_2.index _ (1 : Fin 2) * 256 + 256
    rw [e1]; omega

/-- THE OUTPUT ARRAY after region 3. -/
theorem final3_2 (c : Dev nD) : (dat3 V c).arrAt 2 cfg3.N = product (V c main_arg0) (V c main_v44) :=
  (dat3 V c).arrAt_eq_of_cover 2 _ (fun t _ => flushed3_2 V c t) cover3_2'

end Cert.KernelIdeal.Arr

end
-- ==== Proof.KVals.lean ====
/-
  The idealized kernel program's three results as functions of its arguments.

  The buffer contents at the eight segment boundaries are followed from the launch memory: a stretch of host
  operations changes only the buffers it writes, a region only its output arrays.  Region 0 leaves the layer-1
  pre-aggregation product; the host aggregates it over the edges; region 1 leaves the hidden layer and the
  pre-aggregation product of layers 2 and 3 (against the two weight matrices side by side); the host aggregates that;
  region 2 leaves the sampled embedding; region 3 the projection of the features.
-/
import proofs.«117552_j23536420782574_2_alg».proof.Proof.Gen.KernelIdeal.Frame
import proofs.«117552_j23536420782574_2_alg».proof.Proof.Arr0
import proofs.«117552_j23536420782574_2_alg».proof.Proof.Arr1
import proofs.«117552_j23536420782574_2_alg».proof.Proof.Arr2
import proofs.«117552_j23536420782574_2_alg».proof.Proof.Arr3
import proofs.«117552_j23536420782574_2_alg».proof.Proof.Spec
import Idealize.ShloMosaic.Lib.StableHlo.Run

set_option maxRecDepth 16384

noncomputable section

namespace Cert.KernelIdeal.KV

open Cert.KernelIdeal Cert.KernelIdeal.Gen Cert.KernelIdeal.Spec Cert.KernelIdeal.Arr
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- An argument array of core c at launch. -/
abbrev A (c : Dev nD) (b : Ref sig .tc) : Buf (Elt Ideal) ((c : Thread nD τ).loc b) := m ((c : Thread nD τ).loc b)

/-- The out-degree factor as the [N,1] column the regions read. -/
abbrev outCol (c : Dev nD) : S50000x1.Idx → EReal := shapeCast S50000x1 (degNorm (A m c main_arg9)) shapeCasts_S50000_S50000x1
/-- The in-degree factor as an [N,1] column. -/
abbrev inCol (c : Dev nD) : S50000x1.Idx → EReal := shapeCast S50000x1 (degNorm (A m c main_arg10)) shapeCasts_S50000_S50000x1

/-! ## The first stretch of host operations -/

theorem W1_arg0 (c : Dev nD) : W1 m ρ c (Proc.devRef .tc main_arg0) = A m c main_arg0 := by
  show StableHlo.after hostOps0 (W0 m ρ c) (Proc.devRef .tc main_arg0) = _
  after_results <;> rfl
theorem W1_arg1 (c : Dev nD) : W1 m ρ c (Proc.devRef .tc main_arg1) = A m c main_arg1 := by
  show StableHlo.after hostOps0 (W0 m ρ c) (Proc.devRef .tc main_arg1) = _
  after_results <;> rfl
theorem W1_arg2 (c : Dev nD) : W1 m ρ c (Proc.devRef .tc main_arg2) = A m c main_arg2 := by
  show StableHlo.after hostOps0 (W0 m ρ c) (Proc.devRef .tc main_arg2) = _
  after_results <;> rfl
theorem W1_arg4 (c : Dev nD) : W1 m ρ c (Proc.devRef .tc main_arg4) = A m c main_arg4 := by
  show StableHlo.after hostOps0 (W0 m ρ c) (Proc.devRef .tc main_arg4) = _
  after_results <;> rfl
theorem W1_arg6 (c : Dev nD) : W1 m ρ c (Proc.devRef .tc main_arg6) = A m c main_arg6 := by
  show StableHlo.after hostOps0 (W0 m ρ c) (Proc.devRef .tc main_arg6) = _
  after_results <;> rfl
theorem W1_arg8 (c : Dev nD) : W1 m ρ c (Proc.devRef .tc main_arg8) = A m c main_arg8 := by
  show StableHlo.after hostOps0 (W0 m ρ c) (Proc.devRef .tc main_arg8) = _
  after_results <;> rfl
theorem W1_arg9 (c : Dev nD) : W1 m ρ c (Proc.devRef .tc main_arg9) = A m c main_arg9 := by
  show StableHlo.after hostOps0 (W0 m ρ c) (Proc.devRef .tc main_arg9) = _
  after_results <;> rfl
theorem W1_arg10 (c : Dev nD) : W1 m ρ c (Proc.devRef .tc main_arg10) = A m c main_arg10 := by
  show StableHlo.after hostOps0 (W0 m ρ c) (Proc.devRef .tc main_arg10) = _
  after_results <;> rfl
theorem W1_v15 (c : Dev nD) : (W1 m ρ c (Proc.devRef .tc main_v15) : S50000x1.Idx → EReal) = outCol m c := by
  show StableHlo.after hostOps0 (W0 m ρ c) (Proc.devRef .tc main_v15) = _
  after_results <;> rfl
theorem W1_v16 (c : Dev nD) : (W1 m ρ c (Proc.devRef .tc main_v16) : S50000x1.Idx → EReal) = inCol m c := by
  show StableHlo.after hostOps0 (W0 m ρ c) (Proc.devRef .tc main_v16) = _
  after_results <;> rfl
theorem W1_v17 (c : Dev nD) : (W1 m ρ c (Proc.devRef .tc main_v17) : S1x256.Idx → EReal)
    = shapeCast S1x256 (A m c main_arg3) shapeCasts_S256_S1x256 := by
  show StableHlo.after hostOps0 (W0 m ρ c) (Proc.devRef .tc main_v17) = _
  after_results <;> rfl
theorem W1_v18 (c : Dev nD) : (W1 m ρ c (Proc.devRef .tc main_v18) : S1x128.Idx → EReal)
    = shapeCast S1x128 (A m c main_arg5) shapeCasts_S128_S1x128 := by
  show StableHlo.after hostOps0 (W0 m ρ c) (Proc.devRef .tc main_v18) = _
  after_results <;> rfl
theorem W1_v19 (c : Dev nD) : (W1 m ρ c (Proc.devRef .tc main_v19) : S1x128.Idx → EReal)
    = shapeCast S1x128 (A m c main_arg7) shapeCasts_S128_S1x128 := by
  show StableHlo.after hostOps0 (W0 m ρ c) (Proc.devRef .tc main_v19) = _
  after_results <;> rfl

/-! ## Region 0 -/

/-- The layer-1 pre-aggregation product. -/
abbrev X1 (c : Dev nD) : S50000x256.Idx → EReal := scaledProduct (A m c main_arg0) (outCol m c) (A m c main_arg2)

theorem W2_v20 (c : Dev nD) : (W2 m ρ c (Proc.devRef .tc main_v20) : S50000x256.Idx → EReal) = X1 m c := by
  refine ((W2_arr m ρ c 3).trans (final0_3 (V1 m ρ) c)).trans ?_
  show scaledProduct (W1 m ρ c (Proc.devRef .tc main_arg0)) (W1 m ρ c (Proc.devRef .tc main_v15)) (W1 m ρ c (Proc.devRef .tc main_arg2)) = _
  rw [W1_arg0, W1_v15, W1_arg2]
theorem W2_arg0 (c : Dev nD) : W2 m ρ c (Proc.devRef .tc main_arg0) = A m c main_arg0 :=
  ((W2_arr m ρ c 0).trans (((dat0 (V1 m ρ) c).arrAt_in 0 rfl _).trans (A_eq0 (V1 m ρ) c 0))).trans (W1_arg0 m ρ c)
theorem W2_v15 (c : Dev nD) : (W2 m ρ c (Proc.devRef .tc main_v15) : S50000x1.Idx → EReal) = outCol m c :=
  ((W2_arr m ρ c 1).trans (((dat0 (V1 m ρ) c).arrAt_in 1 rfl _).trans (A_eq0 (V1 m ρ) c 1))).trans (W1_v15 m ρ c)
theorem W2_arg1 (c : Dev nD) : W2 m ρ c (Proc.devRef .tc main_arg1) = A m c main_arg1 :=
  (W2_of_ne m ρ c main_arg1 (by decide)).trans (W1_arg1 m ρ c)
theorem W2_arg4 (c : Dev nD) : W2 m ρ c (Proc.devRef .tc main_arg4) = A m c main_arg4 :=
  (W2_of_ne m ρ c main_arg4 (by decide)).trans (W1_arg4 m ρ c)
theorem W2_arg6 (c : Dev nD) : W2 m ρ c (Proc.devRef .tc main_arg6) = A m c main_arg6 :=
  (W2_of_ne m ρ c main_arg6 (by decide)).trans (W1_arg6 m ρ c)
theorem W2_arg8 (c : Dev nD) : W2 m ρ c (Proc.devRef .tc main_arg8) = A m c main_arg8 :=
  (W2_of_ne m ρ c main_arg8 (by decide)).trans (W1_arg8 m ρ c)
theorem W2_arg9 (c : Dev nD) : W2 m ρ c (Proc.devRef .tc main_arg9) = A m c main_arg9 :=
  (W2_of_ne m ρ c main_arg9 (by decide)).trans (W1_arg9 m ρ c)
theorem W2_arg10 (c : Dev nD) : W2 m ρ c (Proc.devRef .tc main_arg10) = A m c main_arg10 :=
  (W2_of_ne m ρ c main_arg10 (by decide)).trans (W1_arg10 m ρ c)
theorem W2_v16 (c : Dev nD) : (W2 m ρ c (Proc.devRef .tc main_v16) : S50000x1.Idx → EReal) = inCol m c :=
  (W2_of_ne m ρ c main_v16 (by decide)).trans (W1_v16 m ρ c)
theorem W2_v17 (c : Dev nD) : (W2 m ρ c (Proc.devRef .tc main_v17) : S1x256.Idx → EReal)
    = shapeCast S1x256 (A m c main_arg3) shapeCasts_S256_S1x256 :=
  (W2_of_ne m ρ c main_v17 (by decide)).trans (W1_v17 m ρ c)
theorem W2_v18 (c : Dev nD) : (W2 m ρ c (Proc.devRef .tc main_v18) : S1x128.Idx → EReal)
    = shapeCast S1x128 (A m c main_arg5) shapeCasts_S128_S1x128 :=
  (W2_of_ne m ρ c main_v18 (by decide)).trans (W1_v18 m ρ c)
theorem W2_v19 (c : Dev nD) : (W2 m ρ c (Proc.devRef .tc main_v19) : S1x128.Idx → EReal)
    = shapeCast S1x128 (A m c main_arg7) shapeCasts_S128_S1x128 :=
  (W2_of_ne m ρ c main_v19 (by decide)).trans (W1_v19 m ρ c)

/-! ## The second stretch: the layer-1 aggregation and the two weight matrices side by side -/

/-- The layer-1 aggregate. -/
abbrev A1 (c : Dev nD) : S50000x256.Idx → EReal := aggregate (X1 m c) (A m c main_arg9) (A m c main_arg10)
/-- W2 and W3 side by side. -/
abbrev W23 (c : Dev nD) : S256x256.Idx → EReal :=
  concatenate S256x256 1 [⟨S256x128, A m c main_arg4⟩, ⟨S256x128, A m c main_arg6⟩] concatenates_S256x128_S256x128_S256x256_d1

theorem W3_v30 (c : Dev nD) : (W3 m ρ c (Proc.devRef .tc main_v30) : S50000x256.Idx → EReal) = A1 m c := by
  have h : (W3 m ρ c (Proc.devRef .tc main_v30) : S50000x256.Idx → EReal)
      = aggregate (W2 m ρ c (Proc.devRef .tc main_v20)) (W2 m ρ c (Proc.devRef .tc main_arg9)) (W2 m ρ c (Proc.devRef .tc main_arg10)) := by
    show StableHlo.after hostOps1 (W2 m ρ c) (Proc.devRef .tc main_v30) = _
    after_results <;> rfl
  rw [h, W2_v20, W2_arg9, W2_arg10]
theorem W3_v31 (c : Dev nD) : (W3 m ρ c (Proc.devRef .tc main_v31) : S256x256.Idx → EReal) = W23 m c := by
  have h : (W3 m ρ c (Proc.devRef .tc main_v31) : S256x256.Idx → EReal)
      = concatenate S256x256 1 [⟨S256x128, W2 m ρ c (Proc.devRef .tc main_arg4)⟩, ⟨S256x128, W2 m ρ c (Proc.devRef .tc main_arg6)⟩] concatenates_S256x128_S256x128_S256x256_d1 := by
    show StableHlo.after hostOps1 (W2 m ρ c) (Proc.devRef .tc main_v31) = _
    after_results <;> rfl
  rw [h, W2_arg4, W2_arg6]
theorem W3_keep (c : Dev nD) (b : Ref sig .tc)
    (hb : b = main_arg0 ∨ b = main_arg1 ∨ b = main_arg8 ∨ b = main_arg9 ∨ b = main_arg10 ∨ b = main_v15 ∨ b = main_v16
      ∨ b = main_v17 ∨ b = main_v18 ∨ b = main_v19) :
    W3 m ρ c (Proc.devRef .tc b) = W2 m ρ c (Proc.devRef .tc b) := by
  show StableHlo.after hostOps1 (W2 m ρ c) (Proc.devRef .tc b) = _
  rcases hb with rfl | rfl | rfl | rfl | rfl | rfl | rfl | rfl | rfl | rfl <;> (after_results; try rfl)

/-! ## Region 1 -/

/-- The bias of layer 1 as a row. -/
abbrev b1Row (c : Dev nD) : S1x256.Idx → EReal := shapeCast S1x256 (A m c main_arg3) shapeCasts_S256_S1x256
/-- The hidden layer. -/
abbrev H (c : Dev nD) : S50000x256.Idx → EReal := hiddenLayer (A1 m c) (inCol m c) (b1Row m c)
/-- The pre-aggregation product of layers 2 and 3. -/
abbrev X23 (c : Dev nD) : S50000x256.Idx → EReal := hiddenProduct (A1 m c) (inCol m c) (b1Row m c) (outCol m c) (W23 m c)

theorem V3_inputs (c : Dev nD) :
    (W3 m ρ c (Proc.devRef .tc main_v16) : S50000x1.Idx → EReal) = inCol m c
    ∧ (W3 m ρ c (Proc.devRef .tc main_v17) : S1x256.Idx → EReal) = b1Row m c
    ∧ (W3 m ρ c (Proc.devRef .tc main_v15) : S50000x1.Idx → EReal) = outCol m c :=
  ⟨(W3_keep m ρ c main_v16 (by simp)).trans (W2_v16 m ρ c),
   (W3_keep m ρ c main_v17 (by simp)).trans (W2_v17 m ρ c),
   (W3_keep m ρ c main_v15 (by simp)).trans (W2_v15 m ρ c)⟩

theorem W4_v32_0 (c : Dev nD) : (W4 m ρ c (Proc.devRef .tc main_v32_0) : S50000x256.Idx → EReal) = H m c := by
  refine ((W4_arr m ρ c 5).trans (final1_5 (V3 m ρ) c)).trans ?_
  obtain ⟨e16, e17, e15⟩ := V3_inputs m ρ c
  show hiddenLayer (W3 m ρ c (Proc.devRef .tc main_v30)) (W3 m ρ c (Proc.devRef .tc main_v16)) (W3 m ρ c (Proc.devRef .tc main_v17)) = _
  rw [W3_v30, e16, e17]
theorem W4_v32_1 (c : Dev nD) : (W4 m ρ c (Proc.devRef .tc main_v32_1) : S50000x256.Idx → EReal) = X23 m c := by
  refine ((W4_arr m ρ c 6).trans (final1_6 (V3 m ρ) c)).trans ?_
  obtain ⟨e16, e17, e15⟩ := V3_inputs m ρ c
  show hiddenProduct (W3 m ρ c (Proc.devRef .tc main_v30)) (W3 m ρ c (Proc.devRef .tc main_v16)) (W3 m ρ c (Proc.devRef .tc main_v17))
    (W3 m ρ c (Proc.devRef .tc main_v15)) (W3 m ρ c (Proc.devRef .tc main_v31)) = _
  rw [W3_v30, e16, e17, e15, W3_v31]
theorem W4_v16 (c : Dev nD) : (W4 m ρ c (Proc.devRef .tc main_v16) : S50000x1.Idx → EReal) = inCol m c :=
  ((W4_arr m ρ c 1).trans (((dat1 (V3 m ρ) c).arrAt_in 1 rfl _).trans (A_eq1 (V3 m ρ) c 1))).trans (V3_inputs m ρ c).1
theorem W4_of (c : Dev nD) (b : Ref sig .tc) (hb : ∀ w, Pipeline.arrRef spec1 w ≠ b)
    (hk : b = main_arg0 ∨ b = main_arg1 ∨ b = main_arg8 ∨ b = main_arg9 ∨ b = main_arg10 ∨ b = main_v15 ∨ b = main_v16
      ∨ b = main_v17 ∨ b = main_v18 ∨ b = main_v19) :
    W4 m ρ c (Proc.devRef .tc b) = W2 m ρ c (Proc.devRef .tc b) :=
  (W4_of_ne m ρ c b hb).trans (W3_keep m ρ c b hk)

/-! ## The third stretch: the aggregation of layers 2 and 3 -/

/-- The aggregate of layers 2 and 3, 256 wide. -/
abbrev A23 (c : Dev nD) : S50000x256.Idx → EReal := aggregate (X23 m c) (A m c main_arg9) (A m c main_arg10)

theorem W5_v42 (c : Dev nD) : (W5 m ρ c (Proc.devRef .tc main_v42) : S50000x256.Idx → EReal) = A23 m c := by
  have h : (W5 m ρ c (Proc.devRef .tc main_v42) : S50000x256.Idx → EReal)
      = aggregate (W4 m ρ c (Proc.devRef .tc main_v32_1)) (W4 m ρ c (Proc.devRef .tc main_arg9)) (W4 m ρ c (Proc.devRef .tc main_arg10)) := by
    show StableHlo.after hostOps2 (W4 m ρ c) (Proc.devRef .tc main_v42) = _
    after_results <;> rfl
  rw [h, W4_v32_1, W4_of m ρ c main_arg9 (by decide) (by simp), W4_of m ρ c main_arg10 (by decide) (by simp), W2_arg9, W2_arg10]
theorem W5_keep (c : Dev nD) (b : Ref sig .tc)
    (hb : b = main_arg0 ∨ b = main_arg1 ∨ b = main_arg8 ∨ b = main_v16 ∨ b = main_v18 ∨ b = main_v19 ∨ b = main_v32_0) :
    W5 m ρ c (Proc.devRef .tc b) = W4 m ρ c (Proc.devRef .tc b) := by
  show StableHlo.after hostOps2 (W4 m ρ c) (Proc.devRef .tc b) = _
  rcases hb with rfl | rfl | rfl | rfl | rfl | rfl | rfl <;> (after_results; try rfl)

/-! ## Region 2 -/

/-- The sampled embedding. -/
abbrev Z (c : Dev nD) : S50000x128.Idx → EReal :=
  sample (A23 m c) (inCol m c) (shapeCast S1x128 (A m c main_arg5) shapeCasts_S128_S1x128)
    (shapeCast S1x128 (A m c main_arg7) shapeCasts_S128_S1x128) (A m c main_arg1)

theorem W6_v43 (c : Dev nD) : (W6 m ρ c (Proc.devRef .tc main_v43) : S50000x128.Idx → EReal) = Z m c := by
  refine ((W6_arr m ρ c 5).trans (final2_5 (V5 m ρ) c)).trans ?_
  show sample (W5 m ρ c (Proc.devRef .tc main_v42)) (W5 m ρ c (Proc.devRef .tc main_v16)) (W5 m ρ c (Proc.devRef .tc main_v18))
    (W5 m ρ c (Proc.devRef .tc main_v19)) (W5 m ρ c (Proc.devRef .tc main_arg1)) = _
  rw [W5_v42, W5_keep m ρ c main_v16 (by simp), W4_v16, W5_keep m ρ c main_v18 (by simp), W4_of m ρ c main_v18 (by decide) (by simp), W2_v18,
    W5_keep m ρ c main_v19 (by simp), W4_of m ρ c main_v19 (by decide) (by simp), W2_v19,
    W5_keep m ρ c main_arg1 (by simp), W4_of m ρ c main_arg1 (by decide) (by simp), W2_arg1]

/-! ## The last stretch and region 3 -/

theorem W7_v44 (c : Dev nD) : (W7 m ρ c (Proc.devRef .tc main_v44) : S256x256.Idx → EReal)
    = transpose S256x256 [1, 0] (A m c main_arg8) transposes_S256x256_S256x256_1_0 := by
  have h : (W7 m ρ c (Proc.devRef .tc main_v44) : S256x256.Idx → EReal)
      = transpose S256x256 [1, 0] (W6 m ρ c (Proc.devRef .tc main_arg8)) transposes_S256x256_S256x256_1_0 := by
    show StableHlo.after hostOps3 (W6 m ρ c) (Proc.devRef .tc main_v44) = _
    after_results <;> rfl
  rw [h, W6_of_ne m ρ c main_arg8 (by decide), W5_keep m ρ c main_arg8 (by simp), W4_of m ρ c main_arg8 (by decide) (by simp), W2_arg8]
theorem W7_keep (c : Dev nD) (b : Ref sig .tc) (hb : b = main_arg0 ∨ b = main_v43 ∨ b = main_v32_0) :
    W7 m ρ c (Proc.devRef .tc b) = W6 m ρ c (Proc.devRef .tc b) := by
  show StableHlo.after hostOps3 (W6 m ρ c) (Proc.devRef .tc b) = _
  rcases hb with rfl | rfl | rfl <;> (after_results; try rfl)
theorem W7_arg0 (c : Dev nD) : W7 m ρ c (Proc.devRef .tc main_arg0) = A m c main_arg0 := by
  rw [W7_keep m ρ c main_arg0 (by simp), W6_of_ne m ρ c main_arg0 (by decide), W5_keep m ρ c main_arg0 (by simp),
    W4_of m ρ c main_arg0 (by decide) (by simp), W2_arg0]

/-- The projection of the features. -/
abbrev S (c : Dev nD) : S50000x256.Idx → EReal :=
  product (A m c main_arg0) (transpose S256x256 [1, 0] (A m c main_arg8) transposes_S256x256_S256x256_1_0)

/-! ## The three results at the last boundary -/

theorem W8_v45 (c : Dev nD) : (W8 m ρ c (Proc.devRef .tc main_v45) : S50000x256.Idx → EReal) = S m c := by
  refine ((W8_arr m ρ c 2).trans (final3_2 (V7 m ρ) c)).trans ?_
  show product (W7 m ρ c (Proc.devRef .tc main_arg0)) (W7 m ρ c (Proc.devRef .tc main_v44)) = _
  rw [W7_arg0, W7_v44]
theorem W8_v43 (c : Dev nD) : (W8 m ρ c (Proc.devRef .tc main_v43) : S50000x128.Idx → EReal) = Z m c := by
  rw [W8_of_ne m ρ c main_v43 (by decide), W7_keep m ρ c main_v43 (by simp), W6_v43]
theorem W8_v32_0 (c : Dev nD) : (W8 m ρ c (Proc.devRef .tc main_v32_0) : S50000x256.Idx → EReal) = H m c := by
  rw [W8_of_ne m ρ c main_v32_0 (by decide), W7_keep m ρ c main_v32_0 (by simp), W6_of_ne m ρ c main_v32_0 (by decide),
    W5_keep m ρ c main_v32_0 (by simp), W4_v32_0]

end Cert.KernelIdeal.KV

end
-- ==== Proof.RefEqA.lean ====
/-
  The kernel's stages are the reference's stages (first part): the layer-1 pre-aggregation product, the layer-1
  aggregate, the hidden layer, and the final projection.

  Both sides are the same sums and the same entry-by-entry formulas; what differs is only how a per-row factor and a
  per-column bias reach an entry: the kernel reads an [N,1] column or a [1,C] row cast from the vector, the
  reference broadcasts the vector along the other axis.  Each reads the vector's entry of the row (or the column).
-/
import proofs.«117552_j23536420782574_2_alg».proof.Proof.Gen.ReferenceIdeal.Read
import proofs.«117552_j23536420782574_2_alg».proof.Proof.Spec
import proofs.«117552_j23536420782574_2_alg».proof.Proof.LibKeptColumn
import Idealize.ShloMosaic.Lib.ValueLayout

noncomputable section

open scoped BigOperators

namespace Cert.RefEq

open Cert.ReferenceIdeal Cert.ReferenceIdeal.Gen Cert.ReferenceIdeal.Read
open Idealize.ShloMosaic Idealize.ShloMosaic.ValueIdx
open Cert.KernelIdeal.Spec (scaledProduct hiddenLayer hiddenProduct sample product aggregate wrapped degNorm rowOf2 colOf2 lo hi)

/-- A matrix index is its row and its column. -/
theorem ix2_row_col {a b : Nat} (i : (⟨2, ![a, b]⟩ : Shape).Idx) : ix2 (rowOf2 i) (colOf2 i) = i :=
  funext fun d => by match d with | ⟨0, _⟩ => rfl | ⟨1, _⟩ => rfl

/-- The layer-1 pre-aggregation product: the features scaled row by row by the out-degree factor, times W1. -/
theorem scaledProduct_eq (x0 : (⟨S50000x256, .f32⟩ : BufTy).Contents (Elt Ideal)) (x2 : (⟨S256x256, .f32⟩ : BufTy).Contents (Elt Ideal))
    (x9 : (⟨S800000, .i32⟩ : BufTy).Contents (Elt Ideal))
    (h : (⟨1, ![50000]⟩ : Shape).ShapeCasts ⟨2, ![50000, 1]⟩) :
    scaledProduct x0 (shapeCast ⟨2, ![50000, 1]⟩ (val_main_v10 (F := Ideal) x9) h) x2 = val_main_v18 (F := Ideal) x0 x2 x9 := by
  funext i
  rw [val_main_v18_apply]
  unfold scaledProduct
  refine Finset.sum_congr rfl fun k _ => ?_
  rw [val_main_v17_apply, val_main_v16_apply, val_main_v15_apply, KeptColumn.shapeCast_a_a1_apply]
  have e1 : lidx_main_v18 i k = ix2 (rowOf2 i) k := funext fun d => by match d with | ⟨0, _⟩ => rfl | ⟨1, _⟩ => rfl
  have e2 : ridx_main_v18 i k = ix2 k (colOf2 i) := funext fun d => by match d with | ⟨0, _⟩ => rfl | ⟨1, _⟩ => rfl
  have e3 : idx_main_v15 (idx_main_v16 (lidx_main_v18 i k)) = ix1 (rowOf2 i) := funext fun d => by match d with | ⟨0, _⟩ => rfl
  rw [e3, e1, e2]
  rfl

/-- The layer-1 aggregate: the same gather and scatter-add of the same array. -/
theorem aggregate_eq (x0 : (⟨S50000x256, .f32⟩ : BufTy).Contents (Elt Ideal)) (x2 : (⟨S256x256, .f32⟩ : BufTy).Contents (Elt Ideal))
    (x9 x10 : (⟨S800000, .i32⟩ : BufTy).Contents (Elt Ideal)) :
    aggregate (val_main_v18 (F := Ideal) x0 x2 x9) x9 x10 = val_main_v28 (F := Ideal) x0 x2 x9 x10 := by
  rfl

/-- The hidden layer. -/
theorem hidden_eq (x0 : (⟨S50000x256, .f32⟩ : BufTy).Contents (Elt Ideal)) (x2 : (⟨S256x256, .f32⟩ : BufTy).Contents (Elt Ideal))
    (x3 : (⟨S256, .f32⟩ : BufTy).Contents (Elt Ideal)) (x9 x10 : (⟨S800000, .i32⟩ : BufTy).Contents (Elt Ideal))
    (h16 : (⟨1, ![50000]⟩ : Shape).ShapeCasts ⟨2, ![50000, 1]⟩) (h17 : (⟨1, ![256]⟩ : Shape).ShapeCasts ⟨2, ![1, 256]⟩) :
    hiddenLayer (val_main_v28 (F := Ideal) x0 x2 x9 x10) (shapeCast ⟨2, ![50000, 1]⟩ (val_main_v14 (F := Ideal) x10) h16)
      (shapeCast ⟨2, ![1, 256]⟩ x3 h17) = val_main_v35 (F := Ideal) x0 x2 x3 x9 x10 := by
  funext i
  rw [val_main_v35_apply, val_main_v34_apply, val_main_v31_apply, val_main_v30_apply, val_main_v29_apply, val_main_v33_apply,
    val_main_v32_apply, val_main_call0_v0_apply, val_main_call0_cst_apply]
  unfold hiddenLayer
  rw [KeptColumn.shapeCast_a_a1_apply, shapeCast_a_1a_apply, ix2_row_col]
  have e1 : idx_main_v29 (idx_main_v30 i) = ix1 (rowOf2 i) := funext fun d => by match d with | ⟨0, _⟩ => rfl
  have e2 : idx_main_v32 (idx_main_v33 i) = ix1 (colOf2 i) := funext fun d => by match d with | ⟨0, _⟩ => rfl
  rw [e1, e2]
  rfl

/-- The final projection: the features times the transposed weights. -/
theorem product_eq (x0 : (⟨S50000x256, .f32⟩ : BufTy).Contents (Elt Ideal)) (x8 : (⟨S256x256, .f32⟩ : BufTy).Contents (Elt Ideal)) :
    product x0 (val_main_v80 (F := Ideal) x8) = val_main_v81 (F := Ideal) x0 x8 := by
  funext i
  rw [val_main_v81_apply]
  unfold product
  refine Finset.sum_congr rfl fun k _ => ?_
  have e1 : lidx_main_v81 i k = ix2 (rowOf2 i) k := funext fun d => by match d with | ⟨0, _⟩ => rfl | ⟨1, _⟩ => rfl
  have e2 : ridx_main_v81 i k = ix2 k (colOf2 i) := funext fun d => by match d with | ⟨0, _⟩ => rfl | ⟨1, _⟩ => rfl
  rw [e1, e2]

end Cert.RefEq

end
-- ==== Proof.RefEqB.lean ====
/-
  The kernel's stages are the reference's stages (second part): the wide pre-aggregation product of layers 2 and 3.

  The kernel multiplies the row-scaled hidden layer by W2 and W3 side by side, one 256-wide product; the reference
  forms the two 128-wide products.  Column j < 128 of the wide product is column j of the first, column 128 + j is
  column j of the second: the concatenation read at a column.
-/
import proofs.«117552_j23536420782574_2_alg».proof.Proof.RefEqA
import Idealize.ShloMosaic.Lib.Pipeline.Value

noncomputable section

open scoped BigOperators

namespace Cert.RefEq

open Cert.ReferenceIdeal Cert.ReferenceIdeal.Gen Cert.ReferenceIdeal.Read
open Idealize.ShloMosaic Idealize.ShloMosaic.ValueIdx
open Cert.KernelIdeal.Spec (scaledProduct hiddenLayer hiddenProduct sample product aggregate wrapped degNorm rowOf2 colOf2 lo hi)

/-- The degree factor is the reference's, for the sources and for the destinations. -/
theorem degNorm_out (x9 : (⟨S800000, .i32⟩ : BufTy).Contents (Elt Ideal)) : degNorm x9 = val_main_v10 (F := Ideal) x9 := rfl
theorem degNorm_in (x10 : (⟨S800000, .i32⟩ : BufTy).Contents (Elt Ideal)) : degNorm x10 = val_main_v14 (F := Ideal) x10 := rfl

/-- Column j of the wide pre-aggregation product is column j of the reference's layer-2 product. -/
theorem wide_lo (x0 : (⟨S50000x256, .f32⟩ : BufTy).Contents (Elt Ideal)) (x2 : (⟨S256x256, .f32⟩ : BufTy).Contents (Elt Ideal))
    (x3 : (⟨S256, .f32⟩ : BufTy).Contents (Elt Ideal)) (x4 x6 : (⟨S256x128, .f32⟩ : BufTy).Contents (Elt Ideal))
    (x9 x10 : (⟨S800000, .i32⟩ : BufTy).Contents (Elt Ideal))
    (h15 h16 : (⟨1, ![50000]⟩ : Shape).ShapeCasts ⟨2, ![50000, 1]⟩) (h17 : (⟨1, ![256]⟩ : Shape).ShapeCasts ⟨2, ![1, 256]⟩)
    (hc : Shape.Concatenates [(⟨2, ![256, 128]⟩ : Shape), ⟨2, ![256, 128]⟩] ⟨2, ![256, 256]⟩ 1)
    (r : Fin 50000) (q : Fin 128) :
    hiddenProduct (val_main_v28 (F := Ideal) x0 x2 x9 x10) (shapeCast ⟨2, ![50000, 1]⟩ (val_main_v14 (F := Ideal) x10) h16)
        (shapeCast ⟨2, ![1, 256]⟩ x3 h17) (shapeCast ⟨2, ![50000, 1]⟩ (val_main_v10 (F := Ideal) x9) h15)
        (concatenate ⟨2, ![256, 256]⟩ 1 [⟨⟨2, ![256, 128]⟩, x4⟩, ⟨⟨2, ![256, 128]⟩, x6⟩] hc) (ix2 r (lo q))
      = val_main_v39 (F := Ideal) x0 x2 x3 x4 x9 x10 (ix2 r q) := by
  rw [val_main_v39_apply]
  unfold hiddenProduct
  refine Finset.sum_congr rfl fun k _ => ?_
  rw [val_main_v38_apply, val_main_v37_apply, val_main_v36_apply, ← hidden_eq x0 x2 x3 x9 x10 h16 h17]
  unfold hiddenLayer
  simp only [Ideal.mulf_def]
  refine congrArg₂ (· * ·) (congrArg₂ (· * ·) rfl ?_) ?_
  · refine (KeptColumn.shapeCast_a_a1_apply _ h15 _ _).trans (congrArg _ (funext fun d => ?_))
    match d with | ⟨0, _⟩ => rfl
  · have eR : ridx_main_v39 (ix2 r q) k = ix2 k q := funext fun d => by match d with | ⟨0, _⟩ => rfl | ⟨1, _⟩ => rfl
    rw [eR]
    show concatenate ⟨2, ![256, 256]⟩ 1 [⟨⟨2, ![256, 128]⟩, x4⟩, ⟨⟨2, ![256, 128]⟩, x6⟩] hc (ix2 k (lo q)) = x4 (ix2 k q)
    exact concatenate_pair_apply_left (t := ⟨2, ![256, 256]⟩) (s₁ := ⟨2, ![256, 128]⟩) (s₂ := ⟨2, ![256, 128]⟩) (1 : Fin 2) x4 x6 hc
      (ix2 k (lo q)) rfl (ix2 k q) (fun b => by match b with | ⟨0, _⟩ => rfl | ⟨1, _⟩ => rfl)

/-- Column 128 + j of the wide pre-aggregation product is column j of the reference's layer-3 product. -/
theorem wide_hi (x0 : (⟨S50000x256, .f32⟩ : BufTy).Contents (Elt Ideal)) (x2 : (⟨S256x256, .f32⟩ : BufTy).Contents (Elt Ideal))
    (x3 : (⟨S256, .f32⟩ : BufTy).Contents (Elt Ideal)) (x4 x6 : (⟨S256x128, .f32⟩ : BufTy).Contents (Elt Ideal))
    (x9 x10 : (⟨S800000, .i32⟩ : BufTy).Contents (Elt Ideal))
    (h15 h16 : (⟨1, ![50000]⟩ : Shape).ShapeCasts ⟨2, ![50000, 1]⟩) (h17 : (⟨1, ![256]⟩ : Shape).ShapeCasts ⟨2, ![1, 256]⟩)
    (hc : Shape.Concatenates [(⟨2, ![256, 128]⟩ : Shape), ⟨2, ![256, 128]⟩] ⟨2, ![256, 256]⟩ 1)
    (r : Fin 50000) (q : Fin 128) :
    hiddenProduct (val_main_v28 (F := Ideal) x0 x2 x9 x10) (shapeCast ⟨2, ![50000, 1]⟩ (val_main_v14 (F := Ideal) x10) h16)
        (shapeCast ⟨2, ![1, 256]⟩ x3 h17) (shapeCast ⟨2, ![50000, 1]⟩ (val_main_v10 (F := Ideal) x9) h15)
        (concatenate ⟨2, ![256, 256]⟩ 1 [⟨⟨2, ![256, 128]⟩, x4⟩, ⟨⟨2, ![256, 128]⟩, x6⟩] hc) (ix2 r (hi q))
      = val_main_v60 (F := Ideal) x0 x2 x3 x6 x9 x10 (ix2 r q) := by
  rw [val_main_v60_apply]
  unfold hiddenProduct
  refine Finset.sum_congr rfl fun k _ => ?_
  rw [val_main_v59_apply, val_main_v58_apply, val_main_v57_apply, ← hidden_eq x0 x2 x3 x9 x10 h16 h17]
  unfold hiddenLayer
  simp only [Ideal.mulf_def]
  refine congrArg₂ (· * ·) (congrArg₂ (· * ·) rfl ?_) ?_
  · refine (KeptColumn.shapeCast_a_a1_apply _ h15 _ _).trans (congrArg _ (funext fun d => ?_))
    match d with | ⟨0, _⟩ => rfl
  · have eR : ridx_main_v60 (ix2 r q) k = ix2 k q := funext fun d => by match d with | ⟨0, _⟩ => rfl | ⟨1, _⟩ => rfl
    rw [eR]
    show concatenate ⟨2, ![256, 256]⟩ 1 [⟨⟨2, ![256, 128]⟩, x4⟩, ⟨⟨2, ![256, 128]⟩, x6⟩] hc (ix2 k (hi q)) = x6 (ix2 k q)
    exact concatenate_pair_apply_right (t := ⟨2, ![256, 256]⟩) (s₁ := ⟨2, ![256, 128]⟩) (s₂ := ⟨2, ![256, 128]⟩) (1 : Fin 2) x4 x6 hc
      (ix2 k (hi q)) rfl rfl (ix2 k q)
      (fun b hb => by match b with | ⟨0, _⟩ => rfl | ⟨1, _⟩ => exact absurd rfl hb) (by show q.val + 128 = 128 + q.val; omega)

end Cert.RefEq

end
-- ==== Proof.LibRowGatherScatter.lean ====
/-
  ROW GATHER AND ROW SCATTER READ AT AN INDEX. A general lemma file: it names no program.

  What `x[idx]` of the ROWS of a matrix `x : [N, C]` at a column of integer indices `idx : [R, 1]` lowers to is a
  `stablehlo.gather` with offset_dims `[1]`, collapsed_slice_dims `[0]`, start_index_map `[0]`, index_vector_dim 1 and
  slice_sizes `[1, C]`; result element `(e, j)` is `x` at `(r, j)`, where `r` is the start index `idx[e, 0]` read as a
  signed integer and clamped into `[0, N − 1]` (`rowOf`, `rowGather_apply`). The same with a vector `x : [N]` in place
  of the matrix (`vecGather_apply`). The matching row scatter (update_window_dims `[1]`, inserted_window_dims `[0]`,
  scatter_dims_to_operand_dims `[0]`, index_vector_dim 1) sends update element `(e, j)` to `(idx[e, 0], j)`, the index
  read signed and NOT clamped, and drops it when that is outside the operand: so an update that lands at `(r, k)` has
  `idx[e, 0] = r` and `j = k` (`rowScatter_lands`), and, the landing row being inside `[0, N)`, the gather's clamp of
  that same index does nothing: the row the gather reads for entry `e` is the row the scatter writes (`rowOf_of_lands`).
-/
import Idealize.ShloMosaic.PureOps.Ideal
import Idealize.ShloMosaic.Lib.ValueIdx

noncomputable section

namespace Idealize.ShloMosaic.RowOps

open Idealize.ShloMosaic Idealize.ShloMosaic.ValueIdx

/-! ## Gathering rows of a matrix -/

/-- The dimension numbers of a gather of ROWS: operand `[N, C]`, start indices `[R, 1]` (one row number per entry),
    result `[R, C]`; axis 0 of the operand is collapsed and indexed, axis 1 is copied whole. Their conditions `wf` are
    decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row an entry of the start indices names: read signed, clamped into `[0, N − 1]`. -/
def rowOf {R w : Nat} (N : Nat) (hN : 0 < N) (idx : IVec ⟨2, ![R, 1]⟩ w) (e : Fin R) : Fin N :=
  ⟨min (idx (ix2 e 0)).toInt.toNat (N - 1), by omega⟩

/-- THE ROW GATHER READ AT `(e, j)`: the operand at row `rowOf idx e`, column `j`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowGatherDims N R C wf) x idx (ix2 e j) = x (ix2 (rowOf N hN idx e) j) := by
  unfold Host.gather
  congr 1
  funext a
  refine Fin.ext ?_
  show (rowGatherDims N R C wf).start (ix2 e j) idx a + (rowGatherDims N R C wf).batchCoord (ix2 e j) a
    + (rowGatherDims N R C wf).offCoord (ix2 e j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N R C wf).startIndexMap from List.mem_singleton.mpr rfl)]
    have hsi : (rowGatherDims N R C wf).siIdx (ix2 e j)
        ⟨List.idxOf (⟨0, by decide⟩ : Fin 2) (rowGatherDims N R C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h10 : (⟨1, by decide⟩ : Fin 2) ∉ ([0] : List (Fin 2)) := by decide
    have h1 : (⟨1, by decide⟩ : Fin 2) ∉ (rowGatherDims N R C wf).startIndexMap := h10
    have hk : (⟨1, by decide⟩ : Fin 2) ∈ (rowGatherDims N R C wf).sKept :=
      (GatherDims.mem_sKept _ _).mpr ⟨h10, List.not_mem_nil⟩
    unfold GatherDims.start GatherDims.offCoord
    rw [dif_neg h1, dif_pos hk]
    simp only [Nat.zero_add, Nat.add_zero]
    rfl

/-! ## Gathering entries of a vector at the same column of indices -/

/-- The dimension numbers of the same gather over a VECTOR operand `[N]`: start indices `[R, 1]`, result `[R]`; the
    operand's one axis is collapsed and indexed. Their conditions `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `rowOf idx e`, the same clamped signed reading of `idx[e, 0]`. -/
theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (rowOf N hN idx e)) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows into a matrix -/

/-- The dimension numbers of the matching scatter of ROWS: operand `[N, C]`, scatter indices `[R, 1]`, updates
    `[R, C]`; update row `e` goes to operand row `idx[e, 0]`, column by column. Their conditions `wf` are decided on
    a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- WHERE A ROW SCATTER LANDS: an update element `(e, j)` that lands at `(r, k)` has its scatter index `idx[e, 0]`, read
    signed, equal to `r`, and `j = k`. -/
theorem rowScatter_lands {N R C w : Nat}
    (wf : ScatterDims.WF ⟨2, ![N, C]⟩ ⟨2, ![R, 1]⟩ ⟨2, ![R, C]⟩ [1] [0] [0] 1)
    (idx : IVec ⟨2, ![R, 1]⟩ w) (u : (⟨2, ![R, C]⟩ : Shape).Idx) (i : (⟨2, ![N, C]⟩ : Shape).Idx)
    (h : (rowScatterDims N R C wf).resultIdx? u idx = some i) :
    (idx (ix2 ⟨(u 0).val, idx2_lt0 u⟩ 0)).toInt = ((i 0).val : Int) ∧ (u 1).val = (i 1).val := by
  have h10 : (1 : Fin 2) ∉ ([0] : List (Fin 2)) := by decide
  have h00 : (0 : Fin 2) ∈ ([0] : List (Fin 2)) := List.mem_singleton.mpr rfl
  -- the scatter-indices entry update element `u` reads: row `u 0`, the one component
  have hsi : (rowScatterDims N R C wf).siIdx u
      ⟨List.idxOf (0 : Fin 2) (rowScatterDims N R C wf).scatterDimsToOperandDims,
        List.idxOf_lt_length_iff.2 h00⟩ = ix2 ⟨(u 0).val, idx2_lt0 u⟩ 0 := by
    funext b; refine Fin.ext ?_
    match b with
    | ⟨0, _⟩ => rfl
    | ⟨1, _⟩ => rfl
  -- axis 0: the start is the index read signed, the window coordinate is 0 (the axis is inserted)
  have hs0 : (rowScatterDims N R C wf).start u idx (0 : Fin 2) = (idx (ix2 ⟨(u 0).val, idx2_lt0 u⟩ 0)).toInt := by
    unfold ScatterDims.start
    rw [dif_pos (show (0 : Fin 2) ∈ (rowScatterDims N R C wf).scatterDimsToOperandDims from h00), hsi]
  have hw0 : (rowScatterDims N R C wf).window u (0 : Fin 2) = 0 := by
    unfold ScatterDims.window
    rw [dif_neg]
    intro hk
    have : (0 : Fin 2) ∉ ([0] : List (Fin 2)) := by
      simpa [ScatterDims.sKept, Shape.kept, List.mem_filter] using hk
    exact this h00
  -- axis 1: the start is 0 (the map does not name it), the window coordinate is the update's column
  have hs1 : (rowScatterDims N R C wf).start u idx (1 : Fin 2) = 0 := by
    unfold ScatterDims.start
    rw [dif_neg (show (1 : Fin 2) ∉ (rowScatterDims N R C wf).scatterDimsToOperandDims from h10)]
  have hw1 : (rowScatterDims N R C wf).window u (1 : Fin 2) = (u 1).val := by
    unfold ScatterDims.window
    rw [dif_pos (show (1 : Fin 2) ∈ (rowScatterDims N R C wf).sKept by
      simp [ScatterDims.sKept, Shape.kept, List.mem_filter])]
    rfl
  unfold ScatterDims.resultIdx? at h
  split at h
  · rename_i hc
    have hi := Option.some.inj h
    subst hi
    have c0 := (hc (0 : Fin 2)).1
    rw [hs0, hw0] at c0
    refine ⟨?_, ?_⟩
    · show _ = (((((rowScatterDims N R C wf).start u idx (0 : Fin 2)
        + ((rowScatterDims N R C wf).window u (0 : Fin 2) : Nat) : Int)).toNat : Nat) : Int)
      rw [hs0, hw0]
      omega
    · show _ = ((rowScatterDims N R C wf).start u idx (1 : Fin 2)
        + ((rowScatterDims N R C wf).window u (1 : Fin 2) : Nat) : Int).toNat
      rw [hs1, hw1]
      omega
  · exact absurd h (by simp)

/-- THE GATHER'S ROW IS THE SCATTER'S ROW: when update element `u` lands at `i` under the scatter indices `idx`, and
    `idx'` agrees with `idx` at `u`'s entry whenever that entry is not negative (as an index array wrapped pointwise for
    negative entries does), the row the gather reads for that entry off `idx'` is the landing row `i 0`: the landing
    row is inside `[0, N)`, so the clamp does nothing. -/
theorem rowOf_of_lands {N R C w : Nat} (hN : 0 < N)
    (wf : ScatterDims.WF ⟨2, ![N, C]⟩ ⟨2, ![R, 1]⟩ ⟨2, ![R, C]⟩ [1] [0] [0] 1)
    (idx idx' : IVec ⟨2, ![R, 1]⟩ w) (u : (⟨2, ![R, C]⟩ : Shape).Idx) (i : (⟨2, ![N, C]⟩ : Shape).Idx)
    (h : (rowScatterDims N R C wf).resultIdx? u idx = some i)
    (hsame : 0 ≤ (idx (ix2 ⟨(u 0).val, idx2_lt0 u⟩ 0)).toInt →
      idx' (ix2 ⟨(u 0).val, idx2_lt0 u⟩ 0) = idx (ix2 ⟨(u 0).val, idx2_lt0 u⟩ 0)) :
    (rowOf N hN idx' ⟨(u 0).val, idx2_lt0 u⟩).val = (i 0).val := by
  obtain ⟨h0, _⟩ := rowScatter_lands wf idx u i h
  have hs := hsame (by rw [h0]; exact Int.natCast_nonneg _)
  have hlt := idx2_lt0 i
  show min (idx' (ix2 ⟨(u 0).val, idx2_lt0 u⟩ 0)).toInt.toNat (N - 1) = (i 0).val
  rw [hs, h0]
  omega

end Idealize.ShloMosaic.RowOps

end
-- ==== Proof.LibScatterAddAt.lean ====
/-
  A general lemma file (it names no kernel). The exact scatter-add read at an element: the operand's entry plus the sum of the updates over the LANDING SET of
  that element (the updates whose result index is the element), the landing set kept as a named finite set with its
  membership rule, so that two scatter-adds with the same dimension numbers and index array are compared as sums over
  one and the same set. And the congruence of the scatter-add in its four arguments.
-/
import Idealize.ShloMosaic.PureOps.Ideal

noncomputable section

open scoped BigOperators

namespace Idealize.ShloMosaic.ScatterAddAt

open Idealize.ShloMosaic

theorem hostScatterAdd_congr {s si su : Shape} {w : Nat} {d d' : ScatterDims s si su} {x x' : s.Idx → EReal}
    {idx idx' : IVec si w} {u u' : su.Idx → EReal} (hd : d = d') (hx : x = x') (hi : idx = idx') (hu : u = u') :
    Ideal.hostScatterAdd d x idx u = Ideal.hostScatterAdd d' x' idx' u' := by
  subst hd hx hi hu
  rfl

open Classical in
/-- The updates that land on element i. -/
def landing {s si su : Shape} {w : Nat} (d : ScatterDims s si su) (idx : IVec si w) (i : s.Idx) : Finset su.Idx :=
  Finset.univ.filter (fun j => d.resultIdx? j idx = some i)

theorem mem_landing {s si su : Shape} {w : Nat} (d : ScatterDims s si su) (idx : IVec si w) (i : s.Idx) (j : su.Idx) :
    j ∈ landing d idx i ↔ d.resultIdx? j idx = some i := by
  unfold landing
  simp only [Finset.mem_filter, Finset.mem_univ, true_and]

/-- The exact scatter-add at element i: the operand there plus the updates landing there. -/
theorem hostScatterAdd_apply {s si su : Shape} {w : Nat} (d : ScatterDims s si su) (x : s.Idx → EReal) (idx : IVec si w)
    (u : su.Idx → EReal) (i : s.Idx) :
    Ideal.hostScatterAdd d x idx u i = x i + ∑ j ∈ landing d idx i, u j := by
  unfold Ideal.hostScatterAdd landing
  refine congrArg (x i + ·) (Finset.sum_congr ?_ fun _ _ => rfl)
  ext j
  simp only [Finset.mem_filter, Finset.mem_univ, true_and]

/-- The same for the host operation at the ideal instance. -/
theorem host_scatterAdd_apply {s si su : Shape} {w : Nat} {φ : FTy} (d : ScatterDims s si su) (x : FVec Ideal s φ) (idx : IVec si w)
    (u : FVec Ideal su φ) (i : s.Idx) :
    Host.scatterAdd (F := Ideal) d x idx u i = x i + ∑ j ∈ landing d idx i, u j :=
  hostScatterAdd_apply d x idx u i

attribute [irreducible] landing

end Idealize.ShloMosaic.ScatterAddAt

end
-- ==== Proof.LibRowScatterCols.lean ====
/-
  A general lemma file (it names no kernel): where a row scatter lands, as an equivalence, and the transport of a row
  scatter-add between two column widths.

  The row scatter (update row e goes to operand row idx[e, 0], column by column) sends update element (e, c) to
  (r, k) exactly when idx[e, 0], read signed, is r and c = k.  So the updates that land on (r, c) are indexed by the
  entries e with idx[e, 0] = r alone, whatever the number of columns: if two update arrays of different widths agree
  on column c of the one and column c' of the other, and so do the operands at (r, c) and (r, c'), the two
  scatter-adds agree at (r, c) and (r, c').  The same for the edge aggregation (rows gathered, then row
  scatter-added), with the dimension records given by name.
-/
import proofs.«117552_j23536420782574_2_alg».proof.Proof.LibRowGatherScatter
import proofs.«117552_j23536420782574_2_alg».proof.Proof.LibScatterAddAt

noncomputable section

open scoped BigOperators

namespace Idealize.ShloMosaic.RowOps

open Idealize.ShloMosaic Idealize.ShloMosaic.ValueIdx Idealize.ShloMosaic.ScatterAddAt

/-- WHERE A ROW SCATTER LANDS, both ways: update element (e, c) lands at (r, k) iff idx[e, 0] read signed is r and c = k. -/
theorem rowScatter_lands_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (r : Fin N) (k : Fin C) :
    (rowScatterDims N R C wf).resultIdx? (ix2 e c) idx = some (ix2 r k)
      ↔ (idx (ix2 e 0)).toInt = (r.val : Int) ∧ c = k := by
  constructor
  · intro h
    obtain ⟨h0, h1⟩ := rowScatter_lands wf idx (ix2 e c) (ix2 r k) h
    exact ⟨h0, Fin.ext h1⟩
  · rintro ⟨h0, rfl⟩
    have h10 : (1 : Fin 2) ∉ ([0] : List (Fin 2)) := by decide
    have h00 : (0 : Fin 2) ∈ ([0] : List (Fin 2)) := List.mem_singleton.mpr rfl
    have hsi : (rowScatterDims N R C wf).siIdx (ix2 e c)
        ⟨List.idxOf (0 : Fin 2) (rowScatterDims N R C wf).scatterDimsToOperandDims,
          List.idxOf_lt_length_iff.2 h00⟩ = ix2 e 0 := by
      funext b; refine Fin.ext ?_
      match b with
      | ⟨0, _⟩ => rfl
      | ⟨1, _⟩ => rfl
    have hs0 : (rowScatterDims N R C wf).start (ix2 e c) idx (0 : Fin 2) = (idx (ix2 e 0)).toInt := by
      unfold ScatterDims.start
      rw [dif_pos (show (0 : Fin 2) ∈ (rowScatterDims N R C wf).scatterDimsToOperandDims from h00), hsi]
    have hw0 : (rowScatterDims N R C wf).window (ix2 e c) (0 : Fin 2) = 0 := by
      unfold ScatterDims.window
      rw [dif_neg]
      intro hk
      have : (0 : Fin 2) ∉ ([0] : List (Fin 2)) := by
        simpa [ScatterDims.sKept, Shape.kept, List.mem_filter] using hk
      exact this h00
    have hs1 : (rowScatterDims N R C wf).start (ix2 e c) idx (1 : Fin 2) = 0 := by
      unfold ScatterDims.start
      rw [dif_neg (show (1 : Fin 2) ∉ (rowScatterDims N R C wf).scatterDimsToOperandDims from h10)]
    have hw1 : (rowScatterDims N R C wf).window (ix2 e c) (1 : Fin 2) = c.val := by
      unfold ScatterDims.window
      rw [dif_pos (show (1 : Fin 2) ∈ (rowScatterDims N R C wf).sKept by
        simp [ScatterDims.sKept, Shape.kept, List.mem_filter])]
      rfl
    have hcond : ∀ a : Fin 2, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      intro a
      match a with
      | ⟨0, _⟩ =>
        show 0 ≤ (rowScatterDims N R C wf).start (ix2 e c) idx (0 : Fin 2) + ((rowScatterDims N R C wf).window (ix2 e c) (0 : Fin 2) : Nat)
          ∧ (rowScatterDims N R C wf).start (ix2 e c) idx (0 : Fin 2) + ((rowScatterDims N R C wf).window (ix2 e c) (0 : Fin 2) : Nat) < (N : Nat)
        rw [hs0, hw0, h0]
        have := r.isLt
        omega
      | ⟨1, _⟩ =>
        show 0 ≤ (rowScatterDims N R C wf).start (ix2 e c) idx (1 : Fin 2) + ((rowScatterDims N R C wf).window (ix2 e c) (1 : Fin 2) : Nat)
          ∧ (rowScatterDims N R C wf).start (ix2 e c) idx (1 : Fin 2) + ((rowScatterDims N R C wf).window (ix2 e c) (1 : Fin 2) : Nat) < (C : Nat)
        rw [hs1, hw1]
        have := c.isLt
        omega
    unfold ScatterDims.resultIdx?
    rw [dif_pos hcond]
    refine congrArg some (funext fun a => Fin.ext ?_)
    match a with
    | ⟨0, _⟩ =>
      show ((rowScatterDims N R C wf).start (ix2 e c) idx (0 : Fin 2) + ((rowScatterDims N R C wf).window (ix2 e c) (0 : Fin 2) : Nat) : Int).toNat = r.val
      rw [hs0, hw0, h0]
      omega
    | ⟨1, _⟩ =>
      show ((rowScatterDims N R C wf).start (ix2 e c) idx (1 : Fin 2) + ((rowScatterDims N R C wf).window (ix2 e c) (1 : Fin 2) : Nat) : Int).toNat = c.val
      rw [hs1, hw1]
      omega

/-- A ROW SCATTER-ADD TRANSPORTED BETWEEN COLUMN WIDTHS: the same scatter indices, two update arrays that agree on
    column c of the one and column c' of the other, operands that agree at (r, c) and (r, c'): the two exact
    scatter-adds agree there.  The updates landing on (r, c) and on (r, c') are matched entry by entry. -/
theorem rowScatterAdd_col {N R C C' w : Nat}
    (wf : ScatterDims.WF ⟨2, ![N, C]⟩ ⟨2, ![R, 1]⟩ ⟨2, ![R, C]⟩ [1] [0] [0] 1)
    (wf' : ScatterDims.WF ⟨2, ![N, C']⟩ ⟨2, ![R, 1]⟩ ⟨2, ![R, C']⟩ [1] [0] [0] 1)
    (x : (⟨2, ![N, C]⟩ : Shape).Idx → EReal) (x' : (⟨2, ![N, C']⟩ : Shape).Idx → EReal)
    (idx : IVec ⟨2, ![R, 1]⟩ w)
    (U : (⟨2, ![R, C]⟩ : Shape).Idx → EReal) (U' : (⟨2, ![R, C']⟩ : Shape).Idx → EReal)
    (r : Fin N) (c : Fin C) (c' : Fin C')
    (hx : x (ix2 r c) = x' (ix2 r c')) (hU : ∀ e : Fin R, U (ix2 e c) = U' (ix2 e c')) :
    Ideal.hostScatterAdd (rowScatterDims N R C wf) x idx U (ix2 r c)
      = Ideal.hostScatterAdd (rowScatterDims N R C' wf') x' idx U' (ix2 r c') := by
  rw [hostScatterAdd_apply, hostScatterAdd_apply, hx]
  refine congrArg (x' (ix2 r c') + ·) ?_
  refine Finset.sum_nbij' (fun u => ix2 (u 0) c') (fun u' => ix2 (u' 0) c) ?_ ?_ ?_ ?_ ?_
  · intro u hu
    rw [mem_landing] at hu ⊢
    rw [eq_ix2 u] at hu
    have h := (rowScatter_lands_iff wf idx (u 0) (u 1) r c).mp hu
    exact (rowScatter_lands_iff wf' idx (u 0) c' r c').mpr ⟨h.1, rfl⟩
  · intro u hu
    rw [mem_landing] at hu ⊢
    rw [eq_ix2 u] at hu
    have h := (rowScatter_lands_iff wf' idx (u 0) (u 1) r c').mp hu
    exact (rowScatter_lands_iff wf idx (u 0) c r c).mpr ⟨h.1, rfl⟩
  · intro u hu
    rw [mem_landing] at hu
    rw [eq_ix2 u] at hu
    have h := (rowScatter_lands_iff wf idx (u 0) (u 1) r c).mp hu
    show ix2 (u 0) c = u
    rw [← h.2]
    exact (eq_ix2 u).symm
  · intro u hu
    rw [mem_landing] at hu
    rw [eq_ix2 u] at hu
    have h := (rowScatter_lands_iff wf' idx (u 0) (u 1) r c').mp hu
    show ix2 (u 0) c' = u
    rw [← h.2]
    exact (eq_ix2 u).symm
  · intro u hu
    rw [mem_landing] at hu
    rw [eq_ix2 u] at hu
    have h := (rowScatter_lands_iff wf idx (u 0) (u 1) r c).mp hu
    show U u = U' (ix2 (u 0) c')
    rw [← hU (u 0)]
    exact congrArg U ((eq_ix2 u).trans (congrArg (fun k => ix2 (u 0) k) h.2))

/-- THE EDGE AGGREGATION TRANSPORTED BETWEEN COLUMN WIDTHS, for dimension records given by name: a row scatter-add of
    gathered rows, at two column widths.  The records are row scatters and row gathers (hd, hd', hg, hg'), the scatter
    indices and the gather indices agree (hidx, hsrc), the operands agree at the two entries (hx), and the gathered
    arrays agree on column c of the one and column c' of the other (hXY): then the two aggregates agree at (r, c) and
    (r, c').  Every datum is a variable here, so applying it matches names only. -/
theorem rowAggregate_col {N R C C' w : Nat}
    {d : ScatterDims ⟨2, ![N, C]⟩ ⟨2, ![R, 1]⟩ ⟨2, ![R, C]⟩} {d' : ScatterDims ⟨2, ![N, C']⟩ ⟨2, ![R, 1]⟩ ⟨2, ![R, C']⟩}
    {g : GatherDims ⟨2, ![N, C]⟩ ⟨2, ![R, 1]⟩ ⟨2, ![R, C]⟩} {g' : GatherDims ⟨2, ![N, C']⟩ ⟨2, ![R, 1]⟩ ⟨2, ![R, C']⟩}
    {wf : ScatterDims.WF ⟨2, ![N, C]⟩ ⟨2, ![R, 1]⟩ ⟨2, ![R, C]⟩ [1] [0] [0] 1}
    {wf' : ScatterDims.WF ⟨2, ![N, C']⟩ ⟨2, ![R, 1]⟩ ⟨2, ![R, C']⟩ [1] [0] [0] 1}
    {gwf : GatherDims.WF ⟨2, ![N, C]⟩ ⟨2, ![R, 1]⟩ ⟨2, ![R, C]⟩ [1] [0] [] [0] [] 1 ![1, C]}
    {gwf' : GatherDims.WF ⟨2, ![N, C']⟩ ⟨2, ![R, 1]⟩ ⟨2, ![R, C']⟩ [1] [0] [] [0] [] 1 ![1, C']}
    {x : (⟨2, ![N, C]⟩ : Shape).Idx → EReal} {x' : (⟨2, ![N, C']⟩ : Shape).Idx → EReal}
    {idx idx' src src' : IVec ⟨2, ![R, 1]⟩ w}
    {X : (⟨2, ![N, C]⟩ : Shape).Idx → EReal} {Y : (⟨2, ![N, C']⟩ : Shape).Idx → EReal}
    {r : Fin N} {c : Fin C} {c' : Fin C'}
    (hd : d = rowScatterDims N R C wf) (hd' : d' = rowScatterDims N R C' wf')
    (hg : g = rowGatherDims N R C gwf) (hg' : g' = rowGatherDims N R C' gwf')
    (hN : 0 < N) (hidx : idx' = idx) (hsrc : src' = src)
    (hx : x (ix2 r c) = x' (ix2 r c')) (hXY : ∀ n : Fin N, X (ix2 n c) = Y (ix2 n c')) :
    Ideal.hostScatterAdd d x idx (Host.gather g X src) (ix2 r c)
      = Ideal.hostScatterAdd d' x' idx' (Host.gather g' Y src') (ix2 r c') := by
  subst hd hd' hg hg' hidx hsrc
  refine rowScatterAdd_col wf wf' x x' idx' _ _ r c c' hx fun e => ?_
  rw [rowGather_apply hN, rowGather_apply hN]
  exact hXY _

end Idealize.ShloMosaic.RowOps

end
-- ==== Proof.RefEqC.lean ====
/-
  The kernel's stages are the reference's stages (third part): the edge aggregation of layers 2 and 3.

  The edge aggregation (rows gathered at the sources, summed into the rows the destinations name) works column by
  column.  So the 256-wide aggregate read at column j < 128 (at column 128 + j) is the 128-wide aggregate of any array
  that agrees with the wide one on those columns: a row scatter-add transported between column widths, the gathered
  rows being the same rows.
-/
import proofs.«117552_j23536420782574_2_alg».proof.Proof.RefEqA
import proofs.«117552_j23536420782574_2_alg».proof.Proof.LibRowScatterCols

noncomputable section

open scoped BigOperators

namespace Cert.RefEq

open Cert.ReferenceIdeal Cert.ReferenceIdeal.Gen Cert.ReferenceIdeal.Read
open Idealize.ShloMosaic Idealize.ShloMosaic.ValueIdx
open Cert.KernelIdeal.Spec (scaledProduct hiddenLayer hiddenProduct sample product aggregate wrapped degNorm rowOf2 colOf2 lo hi)

/-- The 256-wide edge aggregation is the exact scatter-add of the gathered rows (the same value, named at the ideal
    instance). -/
theorem aggregate_fun (X : (⟨S50000x256, .f32⟩ : BufTy).Contents (Elt Ideal)) (x9 x10 : (⟨S800000, .i32⟩ : BufTy).Contents (Elt Ideal)) :
    aggregate X x9 x10 = Ideal.hostScatterAdd Cert.KernelIdeal.scatter_S50000x256_S800000x1_S800000x256_1_0_0_1
      (broadcastInDim Cert.KernelIdeal.S50000x256 ![] Cert.KernelIdeal.Gen.bcast_S_S50000x256 (constant (F := Ideal) Cert.KernelIdeal.S_ .f32 0x00000000#32))
      (broadcastInDim Cert.KernelIdeal.S800000x1 ![0] Cert.KernelIdeal.Gen.bcast_S800000_S800000x1_0 x10)
      (Host.gather (α := EReal) Cert.KernelIdeal.gather_S50000x256_S800000x1_S800000x256_1_0_n_n_0_1_1256 X (wrapped x9)) := rfl

theorem aggregate_apply (X : (⟨S50000x256, .f32⟩ : BufTy).Contents (Elt Ideal)) (x9 x10 : (⟨S800000, .i32⟩ : BufTy).Contents (Elt Ideal))
    (i : S50000x256.Idx) :
    aggregate X x9 x10 i = Ideal.hostScatterAdd Cert.KernelIdeal.scatter_S50000x256_S800000x1_S800000x256_1_0_0_1
      (broadcastInDim Cert.KernelIdeal.S50000x256 ![] Cert.KernelIdeal.Gen.bcast_S_S50000x256 (constant (F := Ideal) Cert.KernelIdeal.S_ .f32 0x00000000#32))
      (broadcastInDim Cert.KernelIdeal.S800000x1 ![0] Cert.KernelIdeal.Gen.bcast_S800000_S800000x1_0 x10)
      (Host.gather (α := EReal) Cert.KernelIdeal.gather_S50000x256_S800000x1_S800000x256_1_0_n_n_0_1_1256 X (wrapped x9)) i :=
  congrFun (aggregate_fun X x9 x10) i

/-- The 256-wide edge aggregation read at column j < 128 is the reference's 128-wide aggregation of an array that
    agrees with the wide one on those columns. -/
theorem aggregate_lo (X : (⟨S50000x256, .f32⟩ : BufTy).Contents (Elt Ideal)) (Y : (⟨S50000x128, .f32⟩ : BufTy).Contents (Elt Ideal))
    (x9 x10 : (⟨S800000, .i32⟩ : BufTy).Contents (Elt Ideal))
    (hXY : ∀ (n : Fin 50000) (q : Fin 128), X (ix2 n (lo q)) = Y (ix2 n q)) (r : Fin 50000) (q : Fin 128) :
    aggregate X x9 x10 (ix2 r (lo q))
      = Ideal.hostScatterAdd scatter_S50000x128_S800000x1_S800000x128_1_0_0_1 (val_main_v47 (F := Ideal)) (val_main_v48 (F := Ideal) x10)
          (Host.gather (α := EReal) gather_S50000x128_S800000x1_S800000x128_1_0_n_n_0_1_1128 Y (val_main_v45 (F := Ideal) x9)) (ix2 r q) := by
  refine (aggregate_apply X x9 x10 (ix2 r (lo q))).trans ?_
  apply RowOps.rowAggregate_col (r := r) (c := lo q) (c' := q)
  · exact rfl
  · exact rfl
  · exact rfl
  · exact rfl
  · decide
  · exact rfl
  · exact rfl
  · exact rfl
  · exact fun n => hXY n q

/-- The same at column 128 + j. -/
theorem aggregate_hi (X : (⟨S50000x256, .f32⟩ : BufTy).Contents (Elt Ideal)) (Y : (⟨S50000x128, .f32⟩ : BufTy).Contents (Elt Ideal))
    (x9 x10 : (⟨S800000, .i32⟩ : BufTy).Contents (Elt Ideal))
    (hXY : ∀ (n : Fin 50000) (q : Fin 128), X (ix2 n (hi q)) = Y (ix2 n q)) (r : Fin 50000) (q : Fin 128) :
    aggregate X x9 x10 (ix2 r (hi q))
      = Ideal.hostScatterAdd scatter_S50000x128_S800000x1_S800000x128_1_0_0_1 (val_main_v68 (F := Ideal)) (val_main_v69 (F := Ideal) x10)
          (Host.gather (α := EReal) gather_S50000x128_S800000x1_S800000x128_1_0_n_n_0_1_1128 Y (val_main_v66 (F := Ideal) x9)) (ix2 r q) := by
  refine (aggregate_apply X x9 x10 (ix2 r (hi q))).trans ?_
  apply RowOps.rowAggregate_col (r := r) (c := hi q) (c' := q)
  · exact rfl
  · exact rfl
  · exact rfl
  · exact rfl
  · decide
  · exact rfl
  · exact rfl
  · exact rfl
  · exact fun n => hXY n q

/-- The reference's layer-2 aggregate is the exact scatter-add of its gathered rows. -/
theorem mean_aggregate_fun (x0 : (⟨S50000x256, .f32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x9 x10 : (⟨S800000, .i32⟩ : BufTy).Contents (Elt Ideal)) :
    val_main_v49 (F := Ideal) x0 x2 x3 x4 x9 x10
      = Ideal.hostScatterAdd scatter_S50000x128_S800000x1_S800000x128_1_0_0_1 (val_main_v47 (F := Ideal)) (val_main_v48 (F := Ideal) x10)
          (Host.gather (α := EReal) gather_S50000x128_S800000x1_S800000x128_1_0_n_n_0_1_1128 (val_main_v39 (F := Ideal) x0 x2 x3 x4 x9 x10)
            (val_main_v45 (F := Ideal) x9)) := rfl

/-- The reference's layer-3 aggregate is the exact scatter-add of its gathered rows. -/
theorem logstd_aggregate_fun (x0 : (⟨S50000x256, .f32⟩ : BufTy).Contents (Elt Ideal)) (x2 : (⟨S256x256, .f32⟩ : BufTy).Contents (Elt Ideal))
    (x3 : (⟨S256, .f32⟩ : BufTy).Contents (Elt Ideal)) (x6 : (⟨S256x128, .f32⟩ : BufTy).Contents (Elt Ideal))
    (x9 x10 : (⟨S800000, .i32⟩ : BufTy).Contents (Elt Ideal)) :
    val_main_v70 (F := Ideal) x0 x2 x3 x6 x9 x10
      = Ideal.hostScatterAdd scatter_S50000x128_S800000x1_S800000x128_1_0_0_1 (val_main_v68 (F := Ideal)) (val_main_v69 (F := Ideal) x10)
          (Host.gather (α := EReal) gather_S50000x128_S800000x1_S800000x128_1_0_n_n_0_1_1128 (val_main_v60 (F := Ideal) x0 x2 x3 x6 x9 x10)
            (val_main_v66 (F := Ideal) x9)) := rfl

/-- The first 128 columns of the wide aggregate are the reference's layer-2 aggregate. -/
theorem aggregate_mean (x0 : (⟨S50000x256, .f32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x9 x10 : (⟨S800000, .i32⟩ : BufTy).Contents (Elt Ideal)) (X : (⟨S50000x256, .f32⟩ : BufTy).Contents (Elt Ideal))
    (hXY : ∀ (n : Fin 50000) (q : Fin 128), X (ix2 n (lo q)) = val_main_v39 (F := Ideal) x0 x2 x3 x4 x9 x10 (ix2 n q))
    (r : Fin 50000) (q : Fin 128) :
    aggregate X x9 x10 (ix2 r (lo q)) = val_main_v49 (F := Ideal) x0 x2 x3 x4 x9 x10 (ix2 r q) :=
  (aggregate_lo X (val_main_v39 (F := Ideal) x0 x2 x3 x4 x9 x10) x9 x10 hXY r q).trans
    (congrFun (mean_aggregate_fun x0 x2 x3 x4 x9 x10) (ix2 r q)).symm

/-- The last 128 columns of the wide aggregate are the reference's layer-3 aggregate. -/
theorem aggregate_logstd (x0 : (⟨S50000x256, .f32⟩ : BufTy).Contents (Elt Ideal)) (x2 : (⟨S256x256, .f32⟩ : BufTy).Contents (Elt Ideal))
    (x3 : (⟨S256, .f32⟩ : BufTy).Contents (Elt Ideal)) (x6 : (⟨S256x128, .f32⟩ : BufTy).Contents (Elt Ideal))
    (x9 x10 : (⟨S800000, .i32⟩ : BufTy).Contents (Elt Ideal)) (X : (⟨S50000x256, .f32⟩ : BufTy).Contents (Elt Ideal))
    (hXY : ∀ (n : Fin 50000) (q : Fin 128), X (ix2 n (hi q)) = val_main_v60 (F := Ideal) x0 x2 x3 x6 x9 x10 (ix2 n q))
    (r : Fin 50000) (q : Fin 128) :
    aggregate X x9 x10 (ix2 r (hi q)) = val_main_v70 (F := Ideal) x0 x2 x3 x6 x9 x10 (ix2 r q) :=
  (aggregate_hi X (val_main_v60 (F := Ideal) x0 x2 x3 x6 x9 x10) x9 x10 hXY r q).trans
    (congrFun (logstd_aggregate_fun x0 x2 x3 x6 x9 x10) (ix2 r q)).symm

end Cert.RefEq

end
-- ==== Proof.RefEqD.lean ====
/-
  The kernel's stages are the reference's stages (fourth part): the sampled embedding.

  The kernel reads the mean's pre-activation from the first 128 columns of the wide aggregate and the log standard
  deviation from the last 128; the reference reads its two aggregates.  Given that the halves agree, the two formulas
  max(a · n + b2, 0) + noise · exp(a' · n + b3) are the same entry by entry.
-/
import proofs.«117552_j23536420782574_2_alg».proof.Proof.RefEqA

noncomputable section

open scoped BigOperators

namespace Cert.RefEq

open Cert.ReferenceIdeal Cert.ReferenceIdeal.Gen Cert.ReferenceIdeal.Read
open Idealize.ShloMosaic Idealize.ShloMosaic.ValueIdx
open Cert.KernelIdeal.Spec (scaledProduct hiddenLayer hiddenProduct sample product aggregate wrapped degNorm rowOf2 colOf2 lo hi)

/-- The sampled embedding: the kernel's formula over the 256-wide aggregate is the reference's over its two 128-wide
    aggregates. -/
theorem sample_eq (x0 : (⟨S50000x256, .f32⟩ : BufTy).Contents (Elt Ideal)) (x1 : (⟨S50000x128, .f32⟩ : BufTy).Contents (Elt Ideal))
    (x2 : (⟨S256x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x9 x10 : (⟨S800000, .i32⟩ : BufTy).Contents (Elt Ideal))
    (A : (⟨S50000x256, .f32⟩ : BufTy).Contents (Elt Ideal))
    (hlo : ∀ (r : Fin 50000) (q : Fin 128), A (ix2 r (lo q)) = val_main_v49 (F := Ideal) x0 x2 x3 x4 x9 x10 (ix2 r q))
    (hhi : ∀ (r : Fin 50000) (q : Fin 128), A (ix2 r (hi q)) = val_main_v70 (F := Ideal) x0 x2 x3 x6 x9 x10 (ix2 r q))
    (h16 : (⟨1, ![50000]⟩ : Shape).ShapeCasts ⟨2, ![50000, 1]⟩) (h18 h19 : (⟨1, ![128]⟩ : Shape).ShapeCasts ⟨2, ![1, 128]⟩) :
    sample A (shapeCast ⟨2, ![50000, 1]⟩ (val_main_v14 (F := Ideal) x10) h16) (shapeCast ⟨2, ![1, 128]⟩ x5 h18)
        (shapeCast ⟨2, ![1, 128]⟩ x7 h19) x1
      = val_main_v79 (F := Ideal) x0 x1 x2 x3 x4 x5 x6 x7 x9 x10 := by
  funext i
  rw [val_main_v79_apply, val_main_v56_apply, val_main_v55_apply, val_main_v52_apply, val_main_v51_apply, val_main_v50_apply,
    val_main_v54_apply, val_main_v53_apply, val_main_call1_v0_apply, val_main_call1_cst_apply,
    val_main_v78_apply, val_main_v77_apply, val_main_v76_apply, val_main_v73_apply, val_main_v72_apply, val_main_v71_apply,
    val_main_v75_apply, val_main_v74_apply]
  unfold sample
  rw [hlo, hhi, KeptColumn.shapeCast_a_a1_apply, shapeCast_a_1a_apply, shapeCast_a_1a_apply, ix2_row_col]
  have e1 : idx_main_v50 (idx_main_v51 i) = ix1 (rowOf2 i) := funext fun d => by match d with | ⟨0, _⟩ => rfl
  have e2 : idx_main_v53 (idx_main_v54 i) = ix1 (colOf2 i) := funext fun d => by match d with | ⟨0, _⟩ => rfl
  have e3 : idx_main_v71 (idx_main_v72 i) = ix1 (rowOf2 i) := funext fun d => by match d with | ⟨0, _⟩ => rfl
  have e4 : idx_main_v74 (idx_main_v75 i) = ix1 (colOf2 i) := funext fun d => by match d with | ⟨0, _⟩ => rfl
  rw [e1, e2, e3, e4]
  simp only [Ideal.addf_def, Ideal.mulf_def, Ideal.maximumf_def, Ideal.ofBits_def, Ideal.hostUnary_exp_def]

end Cert.RefEq

end
-- ==== Proof.Bridge.lean ====
/-
  The kernel's three results are the reference's three result stages of the same arguments.

  Stage by stage: the layer-1 product, its aggregate and the hidden layer are the reference's; the wide product's two
  halves are the reference's two products, so the wide aggregate's two halves are the reference's two aggregates, and
  the sampled embedding is the reference's; the projection is the reference's.
-/
import proofs.«117552_j23536420782574_2_alg».proof.Proof.KVals
import proofs.«117552_j23536420782574_2_alg».proof.Proof.RefEqA
import proofs.«117552_j23536420782574_2_alg».proof.Proof.RefEqB
import proofs.«117552_j23536420782574_2_alg».proof.Proof.RefEqC
import proofs.«117552_j23536420782574_2_alg».proof.Proof.RefEqD

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Spec
open Cert.ReferenceIdeal.Read (val_main_v18 val_main_v28 val_main_v35 val_main_v39 val_main_v60 val_main_v49 val_main_v70 val_main_v79 val_main_v81)

variable (m : (ℓ : Loc nD τ sig) → Buf (Elt Ideal) ℓ)

theorem X1_eq (c : Dev nD) :
    KV.X1 m c = val_main_v18 (F := Ideal) (KV.A m c main_arg0) (KV.A m c main_arg2) (KV.A m c main_arg9) :=
  RefEq.scaledProduct_eq _ _ _ _

theorem A1_eq (c : Dev nD) :
    KV.A1 m c = val_main_v28 (F := Ideal) (KV.A m c main_arg0) (KV.A m c main_arg2) (KV.A m c main_arg9) (KV.A m c main_arg10) := by
  show aggregate (KV.X1 m c) (KV.A m c main_arg9) (KV.A m c main_arg10) = _
  rw [X1_eq]
  exact RefEq.aggregate_eq _ _ _ _

/-- The hidden layer. -/
theorem H_eq (c : Dev nD) :
    KV.H m c = val_main_v35 (F := Ideal) (KV.A m c main_arg0) (KV.A m c main_arg2) (KV.A m c main_arg3) (KV.A m c main_arg9) (KV.A m c main_arg10) := by
  show hiddenLayer (KV.A1 m c) (KV.inCol m c) (KV.b1Row m c) = _
  rw [A1_eq]
  exact RefEq.hidden_eq _ _ _ _ _ _ _

theorem X23_lo (c : Dev nD) (n : Fin 50000) (q : Fin 128) :
    KV.X23 m c (ix2 n (lo q)) = val_main_v39 (F := Ideal) (KV.A m c main_arg0) (KV.A m c main_arg2) (KV.A m c main_arg3)
      (KV.A m c main_arg4) (KV.A m c main_arg9) (KV.A m c main_arg10) (ix2 n q) := by
  show hiddenProduct (KV.A1 m c) (KV.inCol m c) (KV.b1Row m c) (KV.outCol m c) (KV.W23 m c) (ix2 n (lo q)) = _
  rw [A1_eq]
  exact RefEq.wide_lo _ _ _ _ _ _ _ _ _ _ _ n q

theorem X23_hi (c : Dev nD) (n : Fin 50000) (q : Fin 128) :
    KV.X23 m c (ix2 n (hi q)) = val_main_v60 (F := Ideal) (KV.A m c main_arg0) (KV.A m c main_arg2) (KV.A m c main_arg3)
      (KV.A m c main_arg6) (KV.A m c main_arg9) (KV.A m c main_arg10) (ix2 n q) := by
  show hiddenProduct (KV.A1 m c) (KV.inCol m c) (KV.b1Row m c) (KV.outCol m c) (KV.W23 m c) (ix2 n (hi q)) = _
  rw [A1_eq]
  exact RefEq.wide_hi _ _ _ _ _ _ _ _ _ _ _ n q

theorem A23_lo (c : Dev nD) (r : Fin 50000) (q : Fin 128) :
    KV.A23 m c (ix2 r (lo q)) = val_main_v49 (F := Ideal) (KV.A m c main_arg0) (KV.A m c main_arg2) (KV.A m c main_arg3)
      (KV.A m c main_arg4) (KV.A m c main_arg9) (KV.A m c main_arg10) (ix2 r q) :=
  RefEq.aggregate_mean _ _ _ _ _ _ (KV.X23 m c) (X23_lo m c) r q

theorem A23_hi (c : Dev nD) (r : Fin 50000) (q : Fin 128) :
    KV.A23 m c (ix2 r (hi q)) = val_main_v70 (F := Ideal) (KV.A m c main_arg0) (KV.A m c main_arg2) (KV.A m c main_arg3)
      (KV.A m c main_arg6) (KV.A m c main_arg9) (KV.A m c main_arg10) (ix2 r q) :=
  RefEq.aggregate_logstd _ _ _ _ _ _ (KV.X23 m c) (X23_hi m c) r q

/-- The sampled embedding. -/
theorem Z_eq (c : Dev nD) :
    KV.Z m c = val_main_v79 (F := Ideal) (KV.A m c main_arg0) (KV.A m c main_arg1) (KV.A m c main_arg2) (KV.A m c main_arg3)
      (KV.A m c main_arg4) (KV.A m c main_arg5) (KV.A m c main_arg6) (KV.A m c main_arg7) (KV.A m c main_arg9) (KV.A m c main_arg10) :=
  RefEq.sample_eq _ _ _ _ _ _ _ _ _ _ (KV.A23 m c) (A23_lo m c) (A23_hi m c) _ _ _

/-- The projection. -/
theorem S_eq (c : Dev nD) : KV.S m c = val_main_v81 (F := Ideal) (KV.A m c main_arg0) (KV.A m c main_arg8) :=
  RefEq.product_eq _ _

end Cert.Bridge

end
-- ==== Proof.lean ====
/-
  The certificate: a graph auto-encoder's forward pass — three graph-convolution layers (normalize by the degree
  factors, transform, aggregate over the edges), the reparameterized sample, and a linear projection of the
  features — computed by four kernel regions among host operations, against the plain reference.

  The three frames are the generated ones (the reference's is its generated run with the results dropped); the ideal
  pass rewrote nothing, so the idealization claim is trivial; for the algebraic claim both programs end with the same
  three arrays: the reference's result stages of the arguments.  No finiteness of the inputs is used: the two sides
  are the same sums of the same products, grouped and laid out differently (a per-row factor read from a column or
  broadcast, two weight matrices side by side or apart, the edge aggregation 256 columns at once or 128 and 128).
-/
import proofs.«117552_j23536420782574_2_alg».proof.Defs
import proofs.«117552_j23536420782574_2_alg».proof.Proof.Gen.Kernel
import proofs.«117552_j23536420782574_2_alg».proof.Proof.Gen.Kernel.Skeleton
import proofs.«117552_j23536420782574_2_alg».proof.Proof.Gen.Kernel.Launch
import proofs.«117552_j23536420782574_2_alg».proof.Proof.Gen.Kernel.Points
import proofs.«117552_j23536420782574_2_alg».proof.Proof.Gen.Kernel.Frame
import proofs.«117552_j23536420782574_2_alg».proof.Proof.Gen.KernelIdeal
import proofs.«117552_j23536420782574_2_alg».proof.Proof.Gen.KernelIdeal.Skeleton
import proofs.«117552_j23536420782574_2_alg».proof.Proof.Gen.KernelIdeal.Launch
import proofs.«117552_j23536420782574_2_alg».proof.Proof.Gen.KernelIdeal.Points
import proofs.«117552_j23536420782574_2_alg».proof.Proof.Gen.KernelIdeal.Frame
import proofs.«117552_j23536420782574_2_alg».proof.Proof.Gen.ReferenceIdeal
import proofs.«117552_j23536420782574_2_alg».proof.Proof.Gen.Pre_finite_inputs
import proofs.«117552_j23536420782574_2_alg».proof.Proof.Gen.ReferenceIdeal.Run
import proofs.«117552_j23536420782574_2_alg».proof.Proof.Gen.ReferenceIdeal.Read
import proofs.«117552_j23536420782574_2_alg».proof.Proof.KRun
import proofs.«117552_j23536420782574_2_alg».proof.Proof.KVals
import proofs.«117552_j23536420782574_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both idealized programs, from memories that agree on the arguments, end with the sampled embedding, the hidden
    layer and the projection at the reference's stages of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v79 (F := Ideal) (Cert.KernelIdeal.KV.A m c Cert.KernelIdeal.main_arg0)
      (Cert.KernelIdeal.KV.A m c Cert.KernelIdeal.main_arg1) (Cert.KernelIdeal.KV.A m c Cert.KernelIdeal.main_arg2)
      (Cert.KernelIdeal.KV.A m c Cert.KernelIdeal.main_arg3) (Cert.KernelIdeal.KV.A m c Cert.KernelIdeal.main_arg4)
      (Cert.KernelIdeal.KV.A m c Cert.KernelIdeal.main_arg5) (Cert.KernelIdeal.KV.A m c Cert.KernelIdeal.main_arg6)
      (Cert.KernelIdeal.KV.A m c Cert.KernelIdeal.main_arg7) (Cert.KernelIdeal.KV.A m c Cert.KernelIdeal.main_arg9)
      (Cert.KernelIdeal.KV.A m c Cert.KernelIdeal.main_arg10),
    fun c => Cert.ReferenceIdeal.Read.val_main_v35 (F := Ideal) (Cert.KernelIdeal.KV.A m c Cert.KernelIdeal.main_arg0)
      (Cert.KernelIdeal.KV.A m c Cert.KernelIdeal.main_arg2) (Cert.KernelIdeal.KV.A m c Cert.KernelIdeal.main_arg3)
      (Cert.KernelIdeal.KV.A m c Cert.KernelIdeal.main_arg9) (Cert.KernelIdeal.KV.A m c Cert.KernelIdeal.main_arg10),
    fun c => Cert.ReferenceIdeal.Read.val_main_v81 (F := Ideal) (Cert.KernelIdeal.KV.A m c Cert.KernelIdeal.main_arg0)
      (Cert.KernelIdeal.KV.A m c Cert.KernelIdeal.main_arg8), ?_, ?_⟩
  · refine (θ_run Cert.KernelIdeal.defs _ _).mono (fun r h c => ?_) (Cert.KernelIdeal.KRun.run_values (F := Ideal) m ρ)
    exact ⟨(h c).1.trans ((Cert.KernelIdeal.KV.W8_v43 m ρ c).trans (Cert.Bridge.Z_eq m c)),
      (h c).2.1.trans ((Cert.KernelIdeal.KV.W8_v32_0 m ρ c).trans (Cert.Bridge.H_eq m c)),
      (h c).2.2.1.trans ((Cert.KernelIdeal.KV.W8_v45 m ρ c).trans (Cert.Bridge.S_eq m c)),
      (h c).2.2.2⟩
  · refine (θ_run Cert.ReferenceIdeal.defs _ _).mono (fun r h c => ?_) (Cert.ReferenceIdeal.Value.run (F := Ideal) m' ρ')
    obtain ⟨h0, h1, h2, h3, h4, h5, h6, h7, h8, h9, h10⟩ := hagree c
    refine ⟨(h c).1.trans ((Cert.ReferenceIdeal.Read.val_main_v79_eq m' c).trans ?_),
      (h c).2.1.trans ((Cert.ReferenceIdeal.Read.val_main_v35_eq _ _ _ _ _).trans ?_),
      (h c).2.2.1.trans ((Cert.ReferenceIdeal.Read.val_main_v81_eq _ _).trans ?_),
      (h c).2.2.2⟩
    · rw [h0, h1, h2, h3, h4, h5, h6, h7, h9, h10]
    · rw [h0, h2, h3, h9, h10]
    · rw [h0, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
